-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x64 : Shape := ⟨2, ![400000, 64]⟩
abbrev S400000 : Shape := ⟨1, ![400000]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S400000x64 .f32) (main_arg2 : IVec S400000 32) (main_arg3 : IVec S400000 32) (main_arg4 : FVec F S192x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S400000x64 : Shape := ⟨2, ![400000, 64]⟩
abbrev S400000 : Shape := ⟨1, ![400000]⟩
abbrev S192x128 : Shape := ⟨2, ![192, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S400000x128 : Shape := ⟨2, ![400000, 128]⟩
abbrev S400000x192 : Shape := ⟨2, ![400000, 192]⟩
abbrev S1x128 : Shape := ⟨2, ![1, 128]⟩
abbrev S4000x192 : Shape := ⟨2, ![4000, 192]⟩
abbrev S4000x128 : Shape := ⟨2, ![4000, 128]⟩

abbrev nBuf : Space → Nat
  | .hbm => 52
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S400000, .i32⟩
  | .hbm, ⟨3, _⟩ => ⟨S400000, .i32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S400000x128, .f32⟩
  | .hbm, ⟨31, _⟩ => ⟨S400000x192, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S400000x128, .f32⟩
  | .local _ .vmem, ⟨0, _⟩ => ⟨S4000x192, .f32⟩
  | .local _ .vmem, ⟨1, _⟩ => ⟨S4000x192, .f32⟩
  | .local _ .vmem, ⟨2, _⟩ => ⟨S192x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4000x192, .f32⟩
  | .local _ .vmem, ⟨11, _⟩ => ⟨S4000x192, .f32⟩
  | .local _ .vmem, ⟨12, _⟩ => ⟨S192x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x128_S400000x192_d1 : Shape.Concatenates [S400000x64, S400000x128] S400000x192 1
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  inb_S192x128_S192x128_0_0 : ∀ a, (![0, 0] : Fin 2 → Nat) a + S192x128.size a ≤ S192x128.size a
  h_S192x128 : 0 < S192x128.numel
  shapeCasts_S1x128_S1x128 : S1x128.ShapeCasts S1x128
  bitsLt_bf16_f32 : FTy.bits .bf16 < FTy.bits .f32
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S128 : S4000x128.Reduces [0] S128
  bcast_S_S1x128 : S_.BroadcastsInDim S1x128 (![] : Fin 0 → Fin S1x128.rank)
  inb_S4000x128_S4000x128_0_0 : ∀ a, (![0, 0] : Fin 2 → Nat) a + S4000x128.size a ≤ S4000x128.size a
  h_S4000x128 : 0 < S4000x128.numel
  gather_S50000x128_S400000x1_S400000x128_1_0_n_n_0_1_1128_wf : GatherDims.WF S50000x128 S400000x1 S400000x128 [1] [0] [] [0] [] 1 ![1, 128]
  dot_S4000x192_S192x128_S4000x128_1_0_0_1_n_n_wf : DotDims.WF S4000x192 S192x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S400000x192.size a
  hwx0_0 : ∀ i : grid0.Coords, EltTy.bits .f32 = 32 ∨ (Rect.block (s := S400000x192) S4000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x192.size a ≤ S400000x192.size a
  hwx1_0 : ∀ i : grid1.Coords, EltTy.bits .f32 = 32 ∨ (Rect.block (s := S400000x192) S4000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .f32 = 32 ∨ (Rect.block (s := S192x128) S192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S400000x128.size a
  hwx1_11 : ∀ i : grid1.Coords, EltTy.bits .f32 = 32 ∨ (Rect.block (s := S400000x128) S4000x128.size (cc1_transform_11 i) (hinb1_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v15) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v15) S4000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x64 : Shape := ⟨2, ![400000, 64]⟩
abbrev S400000 : Shape := ⟨1, ![400000]⟩
abbrev S192x128 : Shape := ⟨2, ![192, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S400000x128 : Shape := ⟨2, ![400000, 128]⟩
abbrev S400000x192 : Shape := ⟨2, ![400000, 192]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S400000, .i32⟩
  | .hbm, ⟨3, _⟩ => ⟨S400000, .i32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S400000x128, .f32⟩
  | .hbm, ⟨31, _⟩ => ⟨S400000x192, .f32⟩
  | .hbm, ⟨32, _⟩ => ⟨S400000x128, .f32⟩
  | .hbm, ⟨33, _⟩ => ⟨S1x128, .f32⟩
  | .hbm, ⟨34, _⟩ => ⟨S400000x128, .f32⟩
  | .hbm, ⟨35, _⟩ => ⟨S400000x128, .f32⟩
  | .hbm, ⟨36, _⟩ => ⟨S_, .f32⟩
  | .hbm, ⟨37, _⟩ => ⟨S400000x128, .f32⟩
  | .hbm, ⟨38, _⟩ => ⟨S400000x128, .i1⟩
  | .hbm, ⟨39, _⟩ => ⟨S_, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S1x128, .f32⟩
  | .hbm, ⟨45, _⟩ => ⟨S400000x128, .f32⟩
  | .hbm, ⟨46, _⟩ => ⟨S400000x128, .f32⟩
  | .hbm, ⟨47, _⟩ => ⟨S_, .f32⟩
  | .hbm, ⟨48, _⟩ => ⟨S400000x128, .f32⟩
  | .hbm, ⟨49, _⟩ => ⟨S400000x128, .i1⟩
  | .hbm, ⟨50, _⟩ => ⟨S_, .f32⟩
  | .hbm, ⟨51, _⟩ => ⟨S400000x128, .f32⟩
  | .hbm, ⟨52, _⟩ => ⟨S400000x128, .f32⟩
  | .hbm, ⟨53, _⟩ => ⟨S400000x128, .f32⟩
  | .hbm, ⟨54, _⟩ => ⟨S400000x128, .f32⟩
  | .hbm, ⟨55, _⟩ => ⟨S1x128, .f32⟩
  | .hbm, ⟨56, _⟩ => ⟨S400000x128, .f32⟩
  | .hbm, ⟨57, _⟩ => ⟨S400000x128, .f32⟩
  | .hbm, ⟨58, _⟩ => ⟨S_, .f32⟩
  | .hbm, ⟨59, _⟩ => ⟨S400000x128, .f32⟩
  | .hbm, ⟨60, _⟩ => ⟨S400000x128, .i1⟩
  | .hbm, ⟨61, _⟩ => ⟨S_, .f32⟩
  | .hbm, ⟨62, _⟩ => ⟨S400000x128, .f32⟩
  | .hbm, ⟨63, _⟩ => ⟨S400000x128, .f32⟩
  | .hbm, ⟨64, _⟩ => ⟨S400000x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S400000x128, .f32⟩
  | .hbm, ⟨72, _⟩ => ⟨S400000x128, .f32⟩
  | .hbm, ⟨73, _⟩ => ⟨S400000x128, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S400000x128, .f32⟩
  | .hbm, ⟨81, _⟩ => ⟨S400000x128, .f32⟩
  | .hbm, ⟨82, _⟩ => ⟨S1x128, .f32⟩
  | .hbm, ⟨83, _⟩ => ⟨S400000x128, .f32⟩
  | .hbm, ⟨84, _⟩ => ⟨S400000x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S400000x128, .f32⟩
  | .hbm, ⟨91, _⟩ => ⟨S400000x128, .f32⟩
  | .hbm, ⟨92, _⟩ => ⟨S1x128, .f32⟩
  | .hbm, ⟨93, _⟩ => ⟨S400000x128, .f32⟩
  | .hbm, ⟨94, _⟩ => ⟨S400000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x128_S400000x192_d1 : Shape.Concatenates [S400000x64, S400000x128] S400000x192 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S128_d0 : S400000x128.ReducesTo [0] S128
  h_S_ : 0 < S_.numel
  bcast_S_S128 : S_.BroadcastsInDim S128 (![] : Fin 0 → Fin S128.rank)
  gather_S50000x128_S400000x1_S400000x128_1_0_n_n_0_1_1128_wf : GatherDims.WF S50000x128 S400000x1 S400000x128 [1] [0] [] [0] [] 1 ![1, 128]
  dot_S400000x192_S192x128_S400000x128_1_0_0_1_n_n_wf : DotDims.WF S400000x192 S192x128 S400000x128 [1] [0] [0] [1] [] []
  dot_S400000x128_S128x128_S400000x128_1_0_0_1_n_n_wf : DotDims.WF S400000x128 S128x128 S400000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x192_S192x128_S400000x128_1_0_0_1_n_n : DotDims S400000x192 S192x128 S400000x128 where
  lhsContracting := [1]
  rhsContracting := [0]
  lhsNonContracting := [0]
  rhsNonContracting := [1]
  lhsBatch := []
  rhsBatch := []
  wf := dot_S400000x192_S192x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.RefRun.lean ====
/-
  The reference program, run.

  @main is a straight line of 83 host operations in single-assignment form.  It is read in seven stretches — the edge
  input matrix; the three layers; the mean; the variance; the normalisation — each from ANY contents of the buffers it
  reads: the buffer a stretch ends in holds that stretch's stage of the program (the stages `val_main_vN`, one per
  operation, as functions of the arguments), provided the buffers it reads hold the earlier stages; a buffer a stretch
  does not write keeps its contents through it.  Chained, the result buffer ends at the last stage of the twelve
  arguments and no argument is written.  Every weakly fair execution of @main terminates there.
-/
import proofs.«163272_j69861938037523_1_alg».proof.Proof.Gen.ReferenceIdeal
import proofs.«163272_j69861938037523_1_alg».proof.Proof.RefReadPatched
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Two lines of operations run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 1: operations 1 … 20 of @main. -/
abbrev ops1 : List (HloOp τ sig (Elt F)) :=
  [ nullary main_c (constantI S_ 32 0#32),
    unary main_c main_v0 (broadcastInDim S400000 ![] bcast_S_S400000 : (⟨S_, .i32⟩ : BufTy).Contents (Elt F) → (⟨S400000, .i32⟩ : BufTy).Contents (Elt F)),
    binary main_arg2 main_v0 main_v1 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v2 (broadcastInDim S400000 ![] bcast_S_S400000 : (⟨S_, .i32⟩ : BufTy).Contents (Elt F) → (⟨S400000, .i32⟩ : BufTy).Contents (Elt F)),
    binary main_arg2 main_v2 main_v3 (addi : (⟨S400000, .i32⟩ : BufTy).Contents (Elt F) → (⟨S400000, .i32⟩ : BufTy).Contents (Elt F) → (⟨S400000, .i32⟩ : BufTy).Contents (Elt F)),
    ternary main_v1 main_v3 main_arg2 main_v4 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v4 main_v5 (broadcastInDim S400000x1 ![0] bcast_S400000_S400000x1_0 : (⟨S400000, .i32⟩ : BufTy).Contents (Elt F) → (⟨S400000x1, .i32⟩ : BufTy).Contents (Elt F)),
    binary main_arg0 main_v5 main_v6 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v7 (broadcastInDim S400000 ![] bcast_S_S400000 : (⟨S_, .i32⟩ : BufTy).Contents (Elt F) → (⟨S400000, .i32⟩ : BufTy).Contents (Elt F)),
    binary main_arg3 main_v7 main_v8 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v9 (broadcastInDim S400000 ![] bcast_S_S400000 : (⟨S_, .i32⟩ : BufTy).Contents (Elt F) → (⟨S400000, .i32⟩ : BufTy).Contents (Elt F)),
    binary main_arg3 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_arg3 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v12 (broadcastInDim S400000x1 ![0] bcast_S400000_S400000x1_0 : (⟨S400000, .i32⟩ : BufTy).Contents (Elt F) → (⟨S400000x1, .i32⟩ : BufTy).Contents (Elt F)),
    binary main_arg0 main_v12 main_v13 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v6 main_v13 main_v14 (addf : (⟨S400000x128, .f32⟩ : BufTy).Contents (Elt F) → (⟨S400000x128, .f32⟩ : BufTy).Contents (Elt F) → (⟨S400000x128, .f32⟩ : BufTy).Contents (Elt F)),
    binary main_arg1 main_v14 main_v15 ((fun a b => concatenate S400000x192 1 [⟨S400000x64, a⟩, ⟨S400000x128, b⟩] concatenates_S400000x64_S400000x128_S400000x192_d1) : (⟨S400000x64, .f32⟩ : BufTy).Contents (Elt F) → (⟨S400000x128, .f32⟩ : BufTy).Contents (Elt F) → (⟨S400000x192, .f32⟩ : BufTy).Contents (Elt F)) ]
/-- The buffers stretch 1 writes. -/
abbrev ops1_W : List (Ref sig .tc) := [main_c, main_v0, main_v1, main_c_0, main_v2, main_v3, main_v4, main_v5, main_v6, main_c_1, main_v7, main_v8, main_c_2, main_v9, main_v10, main_v11, main_v12, main_v13, main_v14, main_v15]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 1 does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- Stretch 2: operations 21 … 31 of @main. -/
abbrev ops2 : List (HloOp τ sig (Elt F)) :=
  [ binary main_v15 main_arg4 main_v16 ((fun l r => Host.dotGeneral dot_S400000x192_S192x128_S400000x128_1_0_0_1_n_n none l r) : (⟨S400000x192, .f32⟩ : BufTy).Contents (Elt F) → (⟨S192x128, .f32⟩ : BufTy).Contents (Elt F) → (⟨S400000x128, .f32⟩ : BufTy).Contents (Elt F)),
    unary main_arg5 main_v17 (broadcastInDim S1x128 ![1] bcast_S128_S1x128_1 : (⟨S128, .f32⟩ : BufTy).Contents (Elt F) → (⟨S1x128, .f32⟩ : BufTy).Contents (Elt F)),
    unary main_v17 main_v18 (broadcastInDim S400000x128 ![0, 1] bcast_S1x128_S400000x128_0_1 : (⟨S1x128, .f32⟩ : BufTy).Contents (Elt F) → (⟨S400000x128, .f32⟩ : BufTy).Contents (Elt F)),
    binary main_v16 main_v18 main_v19 (addf : (⟨S400000x128, .f32⟩ : BufTy).Contents (Elt F) → (⟨S400000x128, .f32⟩ : BufTy).Contents (Elt F) → (⟨S400000x128, .f32⟩ : BufTy).Contents (Elt F)),
    nullary main_cst (constant S_ .f32 0x00000000#32),
    unary main_cst main_v20 (broadcastInDim S400000x128 ![] bcast_S_S400000x128 : (⟨S_, .f32⟩ : BufTy).Contents (Elt F) → (⟨S400000x128, .f32⟩ : BufTy).Contents (Elt F)),
    binary main_v19 main_v20 main_v21 (cmpf .oge : (⟨S400000x128, .f32⟩ : BufTy).Contents (Elt F) → (⟨S400000x128, .f32⟩ : BufTy).Contents (Elt F) → (⟨S400000x128, .i1⟩ : BufTy).Contents (Elt F)),
    nullary main_cst_3 (constant S_ .f32 0x3C23D70A#32),
    unary main_cst_3 main_v22 (broadcastInDim S400000x128 ![] bcast_S_S400000x128 : (⟨S_, .f32⟩ : BufTy).Contents (Elt F) → (⟨S400000x128, .f32⟩ : BufTy).Contents (Elt F)),
    binary main_v22 main_v19 main_v23 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v21) (TRef.of (T := ⟨S400000x128, .f32⟩) main_v19) (TRef.of (T := ⟨S400000x128, .f32⟩) main_v23) (TRef.of (T := ⟨S400000x128, .f32⟩) main_v24) select ]
/-- The buffers stretch 2 writes. -/
abbrev ops2_W : List (Ref sig .tc) := [main_v16, main_v17, main_v18, main_v19, main_cst, main_v20, main_v21, main_cst_3, main_v22, main_v23, main_v24]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 2 does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- Stretch 3: operations 32 … 42 of @main. -/
abbrev ops3 : List (HloOp τ sig (Elt F)) :=
  [ binary main_v24 main_arg6 main_v25 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S400000x128 ![0, 1] bcast_S1x128_S400000x128_0_1 : (⟨S1x128, .f32⟩ : BufTy).Contents (Elt F) → (⟨S400000x128, .f32⟩ : BufTy).Contents (Elt F)),
    binary main_v25 main_v27 main_v28 (addf : (⟨S400000x128, .f32⟩ : BufTy).Contents (Elt F) → (⟨S400000x128, .f32⟩ : BufTy).Contents (Elt F) → (⟨S400000x128, .f32⟩ : BufTy).Contents (Elt F)),
    nullary main_cst_4 (constant S_ .f32 0x00000000#32),
    unary main_cst_4 main_v29 (broadcastInDim S400000x128 ![] bcast_S_S400000x128 : (⟨S_, .f32⟩ : BufTy).Contents (Elt F) → (⟨S400000x128, .f32⟩ : BufTy).Contents (Elt F)),
    binary main_v28 main_v29 main_v30 (cmpf .oge : (⟨S400000x128, .f32⟩ : BufTy).Contents (Elt F) → (⟨S400000x128, .f32⟩ : BufTy).Contents (Elt F) → (⟨S400000x128, .i1⟩ : BufTy).Contents (Elt F)),
    nullary main_cst_5 (constant S_ .f32 0x3C23D70A#32),
    unary main_cst_5 main_v31 (broadcastInDim S400000x128 ![] bcast_S_S400000x128 : (⟨S_, .f32⟩ : BufTy).Contents (Elt F) → (⟨S400000x128, .f32⟩ : BufTy).Contents (Elt F)),
    binary main_v31 main_v28 main_v32 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v30) (TRef.of (T := ⟨S400000x128, .f32⟩) main_v28) (TRef.of (T := ⟨S400000x128, .f32⟩) main_v32) (TRef.of (T := ⟨S400000x128, .f32⟩) main_v33) select ]
/-- The buffers stretch 3 writes. -/
abbrev ops3_W : List (Ref sig .tc) := [main_v25, main_v26, main_v27, main_v28, main_cst_4, main_v29, main_v30, main_cst_5, main_v31, main_v32, main_v33]
set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 3 does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-- Stretch 4: operations 43 … 53 of @main. -/
abbrev ops4 : List (HloOp τ sig (Elt F)) :=
  [ binary main_v33 main_arg8 main_v34 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S400000x128 ![0, 1] bcast_S1x128_S400000x128_0_1 : (⟨S1x128, .f32⟩ : BufTy).Contents (Elt F) → (⟨S400000x128, .f32⟩ : BufTy).Contents (Elt F)),
    binary main_v34 main_v36 main_v37 (addf : (⟨S400000x128, .f32⟩ : BufTy).Contents (Elt F) → (⟨S400000x128, .f32⟩ : BufTy).Contents (Elt F) → (⟨S400000x128, .f32⟩ : BufTy).Contents (Elt F)),
    nullary main_cst_6 (constant S_ .f32 0x00000000#32),
    unary main_cst_6 main_v38 (broadcastInDim S400000x128 ![] bcast_S_S400000x128 : (⟨S_, .f32⟩ : BufTy).Contents (Elt F) → (⟨S400000x128, .f32⟩ : BufTy).Contents (Elt F)),
    binary main_v37 main_v38 main_v39 (cmpf .oge : (⟨S400000x128, .f32⟩ : BufTy).Contents (Elt F) → (⟨S400000x128, .f32⟩ : BufTy).Contents (Elt F) → (⟨S400000x128, .i1⟩ : BufTy).Contents (Elt F)),
    nullary main_cst_7 (constant S_ .f32 0x3C23D70A#32),
    unary main_cst_7 main_v40 (broadcastInDim S400000x128 ![] bcast_S_S400000x128 : (⟨S_, .f32⟩ : BufTy).Contents (Elt F) → (⟨S400000x128, .f32⟩ : BufTy).Contents (Elt F)),
    binary main_v40 main_v37 main_v41 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v39) (TRef.of (T := ⟨S400000x128, .f32⟩) main_v37) (TRef.of (T := ⟨S400000x128, .f32⟩) main_v41) (TRef.of (T := ⟨S400000x128, .f32⟩) main_v42) select ]
/-- The buffers stretch 4 writes. -/
abbrev ops4_W : List (Ref sig .tc) := [main_v34, main_v35, main_v36, main_v37, main_cst_6, main_v38, main_v39, main_cst_7, main_v40, main_v41, main_v42]
set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 4 does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

/-- Stretch 5: operations 54 … 58 of @main. -/
abbrev ops5 : List (HloOp τ sig (Elt F)) :=
  [ nullary main_cst_8 (constant S_ .f32 0x00000000#32),
    binary main_v42 main_cst_8 main_v43 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    nullary main_cst_9 (constant S_ .f32 0x48C35000#32),
    unary main_cst_9 main_v44 (broadcastInDim S128 ![] bcast_S_S128 : (⟨S_, .f32⟩ : BufTy).Contents (Elt F) → (⟨S128, .f32⟩ : BufTy).Contents (Elt F)),
    binary main_v43 main_v44 main_v45 (Host.divf : (⟨S128, .f32⟩ : BufTy).Contents (Elt F) → (⟨S128, .f32⟩ : BufTy).Contents (Elt F) → (⟨S128, .f32⟩ : BufTy).Contents (Elt F)) ]
/-- The buffers stretch 5 writes. -/
abbrev ops5_W : List (Ref sig .tc) := [main_cst_8, main_v43, main_cst_9, main_v44, main_v45]
set_option maxRecDepth 8192 in
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 5 does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

/-- Stretch 6: operations 59 … 67 of @main. -/
abbrev ops6 : List (HloOp τ sig (Elt F)) :=
  [ unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S400000x128 ![0, 1] bcast_S1x128_S400000x128_0_1 : (⟨S1x128, .f32⟩ : BufTy).Contents (Elt F) → (⟨S400000x128, .f32⟩ : BufTy).Contents (Elt F)),
    binary main_v42 main_v47 main_v48 (subf : (⟨S400000x128, .f32⟩ : BufTy).Contents (Elt F) → (⟨S400000x128, .f32⟩ : BufTy).Contents (Elt F) → (⟨S400000x128, .f32⟩ : BufTy).Contents (Elt F)),
    binary main_v48 main_v48 main_v49 (mulf : (⟨S400000x128, .f32⟩ : BufTy).Contents (Elt F) → (⟨S400000x128, .f32⟩ : BufTy).Contents (Elt F) → (⟨S400000x128, .f32⟩ : BufTy).Contents (Elt F)),
    nullary main_cst_10 (constant S_ .f32 0x00000000#32),
    binary main_v49 main_cst_10 main_v50 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    nullary main_cst_11 (constant S_ .f32 0x48C35000#32),
    unary main_cst_11 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)) ]
/-- The buffers stretch 6 writes. -/
abbrev ops6_W : List (Ref sig .tc) := [main_v46, main_v47, main_v48, main_v49, main_cst_10, main_v50, main_cst_11, main_v51, main_v52]
set_option maxRecDepth 8192 in
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 6 does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

/-- Stretch 7: operations 68 … 83 of @main. -/
abbrev ops7 : List (HloOp τ sig (Elt F)) :=
  [ unary main_v45 main_v53 (broadcastInDim S1x128 ![1] bcast_S128_S1x128_1 : (⟨S128, .f32⟩ : BufTy).Contents (Elt F) → (⟨S1x128, .f32⟩ : BufTy).Contents (Elt F)),
    unary main_v53 main_v54 (broadcastInDim S400000x128 ![0, 1] bcast_S1x128_S400000x128_0_1 : (⟨S1x128, .f32⟩ : BufTy).Contents (Elt F) → (⟨S400000x128, .f32⟩ : BufTy).Contents (Elt F)),
    binary main_v42 main_v54 main_v55 (subf : (⟨S400000x128, .f32⟩ : BufTy).Contents (Elt F) → (⟨S400000x128, .f32⟩ : BufTy).Contents (Elt F) → (⟨S400000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S400000x128 ![0, 1] bcast_S1x128_S400000x128_0_1 : (⟨S1x128, .f32⟩ : BufTy).Contents (Elt F) → (⟨S400000x128, .f32⟩ : BufTy).Contents (Elt F)),
    binary main_v57 main_v55 main_v58 (mulf : (⟨S400000x128, .f32⟩ : BufTy).Contents (Elt F) → (⟨S400000x128, .f32⟩ : BufTy).Contents (Elt F) → (⟨S400000x128, .f32⟩ : BufTy).Contents (Elt F)),
    nullary main_cst_12 (constant S_ .f32 0x3727C5AC#32),
    unary main_cst_12 main_v59 (broadcastInDim S128 ![] bcast_S_S128 : (⟨S_, .f32⟩ : BufTy).Contents (Elt F) → (⟨S128, .f32⟩ : BufTy).Contents (Elt F)),
    binary main_v52 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S400000x128 ![0, 1] bcast_S1x128_S400000x128_0_1 : (⟨S1x128, .f32⟩ : BufTy).Contents (Elt F) → (⟨S400000x128, .f32⟩ : BufTy).Contents (Elt F)),
    binary main_v58 main_v63 main_v64 (mulf : (⟨S400000x128, .f32⟩ : BufTy).Contents (Elt F) → (⟨S400000x128, .f32⟩ : BufTy).Contents (Elt F) → (⟨S400000x128, .f32⟩ : BufTy).Contents (Elt F)),
    unary main_arg11 main_v65 (broadcastInDim S1x128 ![1] bcast_S128_S1x128_1 : (⟨S128, .f32⟩ : BufTy).Contents (Elt F) → (⟨S1x128, .f32⟩ : BufTy).Contents (Elt F)),
    unary main_v65 main_v66 (broadcastInDim S400000x128 ![0, 1] bcast_S1x128_S400000x128_0_1 : (⟨S1x128, .f32⟩ : BufTy).Contents (Elt F) → (⟨S400000x128, .f32⟩ : BufTy).Contents (Elt F)),
    binary main_v64 main_v66 main_v67 (addf : (⟨S400000x128, .f32⟩ : BufTy).Contents (Elt F) → (⟨S400000x128, .f32⟩ : BufTy).Contents (Elt F) → (⟨S400000x128, .f32⟩ : BufTy).Contents (Elt F)) ]
/-- The buffers stretch 7 writes. -/
abbrev ops7_W : List (Ref sig .tc) := [main_v53, main_v54, main_v55, main_v56, main_v57, main_v58, main_cst_12, main_v59, main_v60, main_v61, main_v62, main_v63, main_v64, main_v65, main_v66, main_v67]
set_option maxRecDepth 8192 in
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide),
    by simp only [nullary_writes, unary_writes, binary_writes, ternary_writes, quaternary_writes, reshape_writes, binaryIndexed_writes, Finset.singleton_subset_iff, List.mem_toFinset]; exact List.mem_map_of_mem (by decide)⟩
/-- A buffer stretch 7 does not write keeps its contents through it. -/
theorem keep7 (V : Valuation τ sig (Elt F)) (r : Ref sig .tc) (h : r ∉ ops7_W) :
    after ops7 V (Proc.devRef .tc r) = V (Proc.devRef .tc r) :=
  after_of_writes_sub ops7 V ops7_writes h

/-- @main's 83 operations, in order. -/
abbrev ops : List (HloOp τ sig (Elt F)) :=
  [ nullary main_c (constantI S_ 32 0#32),
    unary main_c main_v0 (broadcastInDim S400000 ![] bcast_S_S400000 : (⟨S_, .i32⟩ : BufTy).Contents (Elt F) → (⟨S400000, .i32⟩ : BufTy).Contents (Elt F)),
    binary main_arg2 main_v0 main_v1 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v2 (broadcastInDim S400000 ![] bcast_S_S400000 : (⟨S_, .i32⟩ : BufTy).Contents (Elt F) → (⟨S400000, .i32⟩ : BufTy).Contents (Elt F)),
    binary main_arg2 main_v2 main_v3 (addi : (⟨S400000, .i32⟩ : BufTy).Contents (Elt F) → (⟨S400000, .i32⟩ : BufTy).Contents (Elt F) → (⟨S400000, .i32⟩ : BufTy).Contents (Elt F)),
    ternary main_v1 main_v3 main_arg2 main_v4 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v4 main_v5 (broadcastInDim S400000x1 ![0] bcast_S400000_S400000x1_0 : (⟨S400000, .i32⟩ : BufTy).Contents (Elt F) → (⟨S400000x1, .i32⟩ : BufTy).Contents (Elt F)),
    binary main_arg0 main_v5 main_v6 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v7 (broadcastInDim S400000 ![] bcast_S_S400000 : (⟨S_, .i32⟩ : BufTy).Contents (Elt F) → (⟨S400000, .i32⟩ : BufTy).Contents (Elt F)),
    binary main_arg3 main_v7 main_v8 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v9 (broadcastInDim S400000 ![] bcast_S_S400000 : (⟨S_, .i32⟩ : BufTy).Contents (Elt F) → (⟨S400000, .i32⟩ : BufTy).Contents (Elt F)),
    binary main_arg3 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_arg3 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v12 (broadcastInDim S400000x1 ![0] bcast_S400000_S400000x1_0 : (⟨S400000, .i32⟩ : BufTy).Contents (Elt F) → (⟨S400000x1, .i32⟩ : BufTy).Contents (Elt F)),
    binary main_arg0 main_v12 main_v13 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v6 main_v13 main_v14 (addf : (⟨S400000x128, .f32⟩ : BufTy).Contents (Elt F) → (⟨S400000x128, .f32⟩ : BufTy).Contents (Elt F) → (⟨S400000x128, .f32⟩ : BufTy).Contents (Elt F)),
    binary main_arg1 main_v14 main_v15 ((fun a b => concatenate S400000x192 1 [⟨S400000x64, a⟩, ⟨S400000x128, b⟩] concatenates_S400000x64_S400000x128_S400000x192_d1) : (⟨S400000x64, .f32⟩ : BufTy).Contents (Elt F) → (⟨S400000x128, .f32⟩ : BufTy).Contents (Elt F) → (⟨S400000x192, .f32⟩ : BufTy).Contents (Elt F)),
    binary main_v15 main_arg4 main_v16 ((fun l r => Host.dotGeneral dot_S400000x192_S192x128_S400000x128_1_0_0_1_n_n none l r) : (⟨S400000x192, .f32⟩ : BufTy).Contents (Elt F) → (⟨S192x128, .f32⟩ : BufTy).Contents (Elt F) → (⟨S400000x128, .f32⟩ : BufTy).Contents (Elt F)),
    unary main_arg5 main_v17 (broadcastInDim S1x128 ![1] bcast_S128_S1x128_1 : (⟨S128, .f32⟩ : BufTy).Contents (Elt F) → (⟨S1x128, .f32⟩ : BufTy).Contents (Elt F)),
    unary main_v17 main_v18 (broadcastInDim S400000x128 ![0, 1] bcast_S1x128_S400000x128_0_1 : (⟨S1x128, .f32⟩ : BufTy).Contents (Elt F) → (⟨S400000x128, .f32⟩ : BufTy).Contents (Elt F)),
    binary main_v16 main_v18 main_v19 (addf : (⟨S400000x128, .f32⟩ : BufTy).Contents (Elt F) → (⟨S400000x128, .f32⟩ : BufTy).Contents (Elt F) → (⟨S400000x128, .f32⟩ : BufTy).Contents (Elt F)),
    nullary main_cst (constant S_ .f32 0x00000000#32),
    unary main_cst main_v20 (broadcastInDim S400000x128 ![] bcast_S_S400000x128 : (⟨S_, .f32⟩ : BufTy).Contents (Elt F) → (⟨S400000x128, .f32⟩ : BufTy).Contents (Elt F)),
    binary main_v19 main_v20 main_v21 (cmpf .oge : (⟨S400000x128, .f32⟩ : BufTy).Contents (Elt F) → (⟨S400000x128, .f32⟩ : BufTy).Contents (Elt F) → (⟨S400000x128, .i1⟩ : BufTy).Contents (Elt F)),
    nullary main_cst_3 (constant S_ .f32 0x3C23D70A#32),
    unary main_cst_3 main_v22 (broadcastInDim S400000x128 ![] bcast_S_S400000x128 : (⟨S_, .f32⟩ : BufTy).Contents (Elt F) → (⟨S400000x128, .f32⟩ : BufTy).Contents (Elt F)),
    binary main_v22 main_v19 main_v23 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v21) (TRef.of (T := ⟨S400000x128, .f32⟩) main_v19) (TRef.of (T := ⟨S400000x128, .f32⟩) main_v23) (TRef.of (T := ⟨S400000x128, .f32⟩) main_v24) select,
    binary main_v24 main_arg6 main_v25 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S400000x128 ![0, 1] bcast_S1x128_S400000x128_0_1 : (⟨S1x128, .f32⟩ : BufTy).Contents (Elt F) → (⟨S400000x128, .f32⟩ : BufTy).Contents (Elt F)),
    binary main_v25 main_v27 main_v28 (addf : (⟨S400000x128, .f32⟩ : BufTy).Contents (Elt F) → (⟨S400000x128, .f32⟩ : BufTy).Contents (Elt F) → (⟨S400000x128, .f32⟩ : BufTy).Contents (Elt F)),
    nullary main_cst_4 (constant S_ .f32 0x00000000#32),
    unary main_cst_4 main_v29 (broadcastInDim S400000x128 ![] bcast_S_S400000x128 : (⟨S_, .f32⟩ : BufTy).Contents (Elt F) → (⟨S400000x128, .f32⟩ : BufTy).Contents (Elt F)),
    binary main_v28 main_v29 main_v30 (cmpf .oge : (⟨S400000x128, .f32⟩ : BufTy).Contents (Elt F) → (⟨S400000x128, .f32⟩ : BufTy).Contents (Elt F) → (⟨S400000x128, .i1⟩ : BufTy).Contents (Elt F)),
    nullary main_cst_5 (constant S_ .f32 0x3C23D70A#32),
    unary main_cst_5 main_v31 (broadcastInDim S400000x128 ![] bcast_S_S400000x128 : (⟨S_, .f32⟩ : BufTy).Contents (Elt F) → (⟨S400000x128, .f32⟩ : BufTy).Contents (Elt F)),
    binary main_v31 main_v28 main_v32 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v30) (TRef.of (T := ⟨S400000x128, .f32⟩) main_v28) (TRef.of (T := ⟨S400000x128, .f32⟩) main_v32) (TRef.of (T := ⟨S400000x128, .f32⟩) main_v33) select,
    binary main_v33 main_arg8 main_v34 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S400000x128 ![0, 1] bcast_S1x128_S400000x128_0_1 : (⟨S1x128, .f32⟩ : BufTy).Contents (Elt F) → (⟨S400000x128, .f32⟩ : BufTy).Contents (Elt F)),
    binary main_v34 main_v36 main_v37 (addf : (⟨S400000x128, .f32⟩ : BufTy).Contents (Elt F) → (⟨S400000x128, .f32⟩ : BufTy).Contents (Elt F) → (⟨S400000x128, .f32⟩ : BufTy).Contents (Elt F)),
    nullary main_cst_6 (constant S_ .f32 0x00000000#32),
    unary main_cst_6 main_v38 (broadcastInDim S400000x128 ![] bcast_S_S400000x128 : (⟨S_, .f32⟩ : BufTy).Contents (Elt F) → (⟨S400000x128, .f32⟩ : BufTy).Contents (Elt F)),
    binary main_v37 main_v38 main_v39 (cmpf .oge : (⟨S400000x128, .f32⟩ : BufTy).Contents (Elt F) → (⟨S400000x128, .f32⟩ : BufTy).Contents (Elt F) → (⟨S400000x128, .i1⟩ : BufTy).Contents (Elt F)),
    nullary main_cst_7 (constant S_ .f32 0x3C23D70A#32),
    unary main_cst_7 main_v40 (broadcastInDim S400000x128 ![] bcast_S_S400000x128 : (⟨S_, .f32⟩ : BufTy).Contents (Elt F) → (⟨S400000x128, .f32⟩ : BufTy).Contents (Elt F)),
    binary main_v40 main_v37 main_v41 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v39) (TRef.of (T := ⟨S400000x128, .f32⟩) main_v37) (TRef.of (T := ⟨S400000x128, .f32⟩) main_v41) (TRef.of (T := ⟨S400000x128, .f32⟩) main_v42) select,
    nullary main_cst_8 (constant S_ .f32 0x00000000#32),
    binary main_v42 main_cst_8 main_v43 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    nullary main_cst_9 (constant S_ .f32 0x48C35000#32),
    unary main_cst_9 main_v44 (broadcastInDim S128 ![] bcast_S_S128 : (⟨S_, .f32⟩ : BufTy).Contents (Elt F) → (⟨S128, .f32⟩ : BufTy).Contents (Elt F)),
    binary main_v43 main_v44 main_v45 (Host.divf : (⟨S128, .f32⟩ : BufTy).Contents (Elt F) → (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S400000x128 ![0, 1] bcast_S1x128_S400000x128_0_1 : (⟨S1x128, .f32⟩ : BufTy).Contents (Elt F) → (⟨S400000x128, .f32⟩ : BufTy).Contents (Elt F)),
    binary main_v42 main_v47 main_v48 (subf : (⟨S400000x128, .f32⟩ : BufTy).Contents (Elt F) → (⟨S400000x128, .f32⟩ : BufTy).Contents (Elt F) → (⟨S400000x128, .f32⟩ : BufTy).Contents (Elt F)),
    binary main_v48 main_v48 main_v49 (mulf : (⟨S400000x128, .f32⟩ : BufTy).Contents (Elt F) → (⟨S400000x128, .f32⟩ : BufTy).Contents (Elt F) → (⟨S400000x128, .f32⟩ : BufTy).Contents (Elt F)),
    nullary main_cst_10 (constant S_ .f32 0x00000000#32),
    binary main_v49 main_cst_10 main_v50 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    nullary main_cst_11 (constant S_ .f32 0x48C35000#32),
    unary main_cst_11 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)),
    unary main_v45 main_v53 (broadcastInDim S1x128 ![1] bcast_S128_S1x128_1 : (⟨S128, .f32⟩ : BufTy).Contents (Elt F) → (⟨S1x128, .f32⟩ : BufTy).Contents (Elt F)),
    unary main_v53 main_v54 (broadcastInDim S400000x128 ![0, 1] bcast_S1x128_S400000x128_0_1 : (⟨S1x128, .f32⟩ : BufTy).Contents (Elt F) → (⟨S400000x128, .f32⟩ : BufTy).Contents (Elt F)),
    binary main_v42 main_v54 main_v55 (subf : (⟨S400000x128, .f32⟩ : BufTy).Contents (Elt F) → (⟨S400000x128, .f32⟩ : BufTy).Contents (Elt F) → (⟨S400000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S400000x128 ![0, 1] bcast_S1x128_S400000x128_0_1 : (⟨S1x128, .f32⟩ : BufTy).Contents (Elt F) → (⟨S400000x128, .f32⟩ : BufTy).Contents (Elt F)),
    binary main_v57 main_v55 main_v58 (mulf : (⟨S400000x128, .f32⟩ : BufTy).Contents (Elt F) → (⟨S400000x128, .f32⟩ : BufTy).Contents (Elt F) → (⟨S400000x128, .f32⟩ : BufTy).Contents (Elt F)),
    nullary main_cst_12 (constant S_ .f32 0x3727C5AC#32),
    unary main_cst_12 main_v59 (broadcastInDim S128 ![] bcast_S_S128 : (⟨S_, .f32⟩ : BufTy).Contents (Elt F) → (⟨S128, .f32⟩ : BufTy).Contents (Elt F)),
    binary main_v52 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S400000x128 ![0, 1] bcast_S1x128_S400000x128_0_1 : (⟨S1x128, .f32⟩ : BufTy).Contents (Elt F) → (⟨S400000x128, .f32⟩ : BufTy).Contents (Elt F)),
    binary main_v58 main_v63 main_v64 (mulf : (⟨S400000x128, .f32⟩ : BufTy).Contents (Elt F) → (⟨S400000x128, .f32⟩ : BufTy).Contents (Elt F) → (⟨S400000x128, .f32⟩ : BufTy).Contents (Elt F)),
    unary main_arg11 main_v65 (broadcastInDim S1x128 ![1] bcast_S128_S1x128_1 : (⟨S128, .f32⟩ : BufTy).Contents (Elt F) → (⟨S1x128, .f32⟩ : BufTy).Contents (Elt F)),
    unary main_v65 main_v66 (broadcastInDim S400000x128 ![0, 1] bcast_S1x128_S400000x128_0_1 : (⟨S1x128, .f32⟩ : BufTy).Contents (Elt F) → (⟨S400000x128, .f32⟩ : BufTy).Contents (Elt F)),
    binary main_v64 main_v66 main_v67 (addf : (⟨S400000x128, .f32⟩ : BufTy).Contents (Elt F) → (⟨S400000x128, .f32⟩ : BufTy).Contents (Elt F) → (⟨S400000x128, .f32⟩ : BufTy).Contents (Elt F)) ]

theorem ops_eq : (ops : List (HloOp τ sig (Elt F))) = ops1 ++ (ops2 ++ (ops3 ++ (ops4 ++ (ops5 ++ (ops6 ++ ops7))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- A buffer no stretch writes keeps its contents through the whole line. -/
theorem keep_all (V : Valuation τ sig (Elt F)) (r : Ref sig .tc) (h1 : r ∉ ops1_W) (h2 : r ∉ ops2_W) (h3 : r ∉ ops3_W)
    (h4 : r ∉ ops4_W) (h5 : r ∉ ops5_W) (h6 : r ∉ ops6_W) (h7 : r ∉ ops7_W) :
    after ops V (Proc.devRef .tc r) = V (Proc.devRef .tc r) := by
  rw [ops_eq]
  simp only [after_append]
  rw [keep7 _ r h7, keep6 _ r h6, keep5 _ r h5, keep4 _ r h4, keep3 _ r h3, keep2 _ r h2, keep1 _ r h1]

/-! ### The stretches' stages -/

/-- Stretch 1 leaves the edge input matrix: the concatenation of the edge features with the sum of the two row gathers. -/
theorem stage1 (V : Valuation τ sig (Elt F)) :
    after ops1 V (Proc.devRef .tc main_v15)
      = val_main_v15 (F := F) (V (Proc.devRef .tc main_arg0)) (V (Proc.devRef .tc main_arg1)) (V (Proc.devRef .tc main_arg2))
          (V (Proc.devRef .tc main_arg3)) := by
  after_results_simp <;> rfl

/-- Stretch 2 leaves the first layer of the matrix it finds. -/
theorem stage2 (V : Valuation τ sig (Elt F)) (x0 x1 x2 x3)
    (h : V (Proc.devRef .tc main_v15) = val_main_v15 (F := F) x0 x1 x2 x3) :
    after ops2 V (Proc.devRef .tc main_v24)
      = val_main_v24 (F := F) x0 x1 x2 x3 (V (Proc.devRef .tc main_arg4)) (V (Proc.devRef .tc main_arg5)) := by
  after_results_simp
  rw [h]
  rfl

/-- Stretch 3 leaves the second layer. -/
theorem stage3 (V : Valuation τ sig (Elt F)) (x0 x1 x2 x3 x4 x5)
    (h : V (Proc.devRef .tc main_v24) = val_main_v24 (F := F) x0 x1 x2 x3 x4 x5) :
    after ops3 V (Proc.devRef .tc main_v33)
      = val_main_v33 (F := F) x0 x1 x2 x3 x4 x5 (V (Proc.devRef .tc main_arg6)) (V (Proc.devRef .tc main_arg7)) := by
  after_results_simp
  rw [h]
  rfl

/-- Stretch 4 leaves the third layer: the activations. -/
theorem stage4 (V : Valuation τ sig (Elt F)) (x0 x1 x2 x3 x4 x5 x6 x7)
    (h : V (Proc.devRef .tc main_v33) = val_main_v33 (F := F) x0 x1 x2 x3 x4 x5 x6 x7) :
    after ops4 V (Proc.devRef .tc main_v42)
      = val_main_v42 (F := F) x0 x1 x2 x3 x4 x5 x6 x7 (V (Proc.devRef .tc main_arg8)) (V (Proc.devRef .tc main_arg9)) := by
  after_results_simp
  rw [h]
  rfl

/-- Stretch 5 leaves the mean of the activations it finds. -/
theorem stage5 (V : Valuation τ sig (Elt F)) (x0 x1 x2 x3 x4 x5 x6 x7 x8 x9)
    (h : V (Proc.devRef .tc main_v42) = val_main_v42 (F := F) x0 x1 x2 x3 x4 x5 x6 x7 x8 x9) :
    after ops5 V (Proc.devRef .tc main_v45) = val_main_v45 (F := F) x0 x1 x2 x3 x4 x5 x6 x7 x8 x9 := by
  after_results_simp
  rw [h]
  rfl

/-- Stretch 6 leaves the variance. -/
theorem stage6 (V : Valuation τ sig (Elt F)) (x0 x1 x2 x3 x4 x5 x6 x7 x8 x9)
    (h : V (Proc.devRef .tc main_v42) = val_main_v42 (F := F) x0 x1 x2 x3 x4 x5 x6 x7 x8 x9)
    (h' : V (Proc.devRef .tc main_v45) = val_main_v45 (F := F) x0 x1 x2 x3 x4 x5 x6 x7 x8 x9) :
    after ops6 V (Proc.devRef .tc main_v52) = val_main_v52 (F := F) x0 x1 x2 x3 x4 x5 x6 x7 x8 x9 := by
  after_results_simp
  rw [h, h']
  rfl

/-- Stretch 7 leaves the normalised result. -/
theorem stage7 (V : Valuation τ sig (Elt F)) (x0 x1 x2 x3 x4 x5 x6 x7 x8 x9)
    (h : V (Proc.devRef .tc main_v42) = val_main_v42 (F := F) x0 x1 x2 x3 x4 x5 x6 x7 x8 x9)
    (h' : V (Proc.devRef .tc main_v45) = val_main_v45 (F := F) x0 x1 x2 x3 x4 x5 x6 x7 x8 x9)
    (h'' : V (Proc.devRef .tc main_v52) = val_main_v52 (F := F) x0 x1 x2 x3 x4 x5 x6 x7 x8 x9) :
    after ops7 V (Proc.devRef .tc main_v67)
      = val_main_v67 (F := F) x0 x1 x2 x3 x4 x5 x6 x7 x8 x9 (V (Proc.devRef .tc main_arg10)) (V (Proc.devRef .tc main_arg11)) := by
  after_results_simp
  rw [h, h', h'']
  rfl

/-- THE LINE: the result buffer ends at the last stage of the twelve arguments' contents. -/
theorem result_eq (V : Valuation τ sig (Elt F)) :
    after ops V (Proc.devRef .tc main_v67)
      = val_main_v67 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  rw [ops_eq]
  simp only [after_append]
  have s1 := stage1 V
  have s2 := stage2 (after ops1 V) _ _ _ _ s1
  rw [keep1 V main_arg4 (by decide), keep1 V main_arg5 (by decide)] at s2
  have s3 := stage3 (after ops2 (after ops1 V)) _ _ _ _ _ _ s2
  rw [keep2 _ main_arg6 (by decide), keep2 _ main_arg7 (by decide), keep1 V main_arg6 (by decide),
    keep1 V main_arg7 (by decide)] at s3
  have s4 := stage4 (after ops3 (after ops2 (after ops1 V))) _ _ _ _ _ _ _ _ s3
  rw [keep3 _ main_arg8 (by decide), keep3 _ main_arg9 (by decide), keep2 _ main_arg8 (by decide),
    keep2 _ main_arg9 (by decide), keep1 V main_arg8 (by decide), keep1 V main_arg9 (by decide)] at s4
  have s5 := stage5 (after ops4 (after ops3 (after ops2 (after ops1 V)))) _ _ _ _ _ _ _ _ _ _ s4
  have s4' := (keep5 (after ops4 (after ops3 (after ops2 (after ops1 V)))) main_v42 (by decide)).trans s4
  have s6 := stage6 (after ops5 (after ops4 (after ops3 (after ops2 (after ops1 V))))) _ _ _ _ _ _ _ _ _ _ s4' s5
  have s4'' := (keep6 (after ops5 (after ops4 (after ops3 (after ops2 (after ops1 V))))) main_v42 (by decide)).trans s4'
  have s5' := (keep6 (after ops5 (after ops4 (after ops3 (after ops2 (after ops1 V))))) main_v45 (by decide)).trans s5
  have s7 := stage7 (after ops6 (after ops5 (after ops4 (after ops3 (after ops2 (after ops1 V)))))) _ _ _ _ _ _ _ _ _ _
    s4'' s5' s6
  rw [keep6 _ main_arg10 (by decide), keep6 _ main_arg11 (by decide), keep5 _ main_arg10 (by decide),
    keep5 _ main_arg11 (by decide), keep4 _ main_arg10 (by decide), keep4 _ main_arg11 (by decide),
    keep3 _ main_arg10 (by decide), keep3 _ main_arg11 (by decide), keep2 _ main_arg10 (by decide),
    keep2 _ main_arg11 (by decide), keep1 V main_arg10 (by decide), keep1 V main_arg11 (by decide)] at s7
  exact s7

/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = val_main_v67 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v67).trans ((result_eq _).trans rfl),
      (h c main_arg0).trans ((keep_all _ main_arg0 (by decide) (by decide) (by decide) (by decide) (by decide) (by decide) (by decide)).trans rfl),
      (h c main_arg1).trans ((keep_all _ main_arg1 (by decide) (by decide) (by decide) (by decide) (by decide) (by decide) (by decide)).trans rfl),
      (h c main_arg2).trans ((keep_all _ main_arg2 (by decide) (by decide) (by decide) (by decide) (by decide) (by decide) (by decide)).trans rfl),
      (h c main_arg3).trans ((keep_all _ main_arg3 (by decide) (by decide) (by decide) (by decide) (by decide) (by decide) (by decide)).trans rfl),
      (h c main_arg4).trans ((keep_all _ main_arg4 (by decide) (by decide) (by decide) (by decide) (by decide) (by decide) (by decide)).trans rfl),
      (h c main_arg5).trans ((keep_all _ main_arg5 (by decide) (by decide) (by decide) (by decide) (by decide) (by decide) (by decide)).trans rfl),
      (h c main_arg6).trans ((keep_all _ main_arg6 (by decide) (by decide) (by decide) (by decide) (by decide) (by decide) (by decide)).trans rfl),
      (h c main_arg7).trans ((keep_all _ main_arg7 (by decide) (by decide) (by decide) (by decide) (by decide) (by decide) (by decide)).trans rfl),
      (h c main_arg8).trans ((keep_all _ main_arg8 (by decide) (by decide) (by decide) (by decide) (by decide) (by decide) (by decide)).trans rfl),
      (h c main_arg9).trans ((keep_all _ main_arg9 (by decide) (by decide) (by decide) (by decide) (by decide) (by decide) (by decide)).trans rfl),
      (h c main_arg10).trans ((keep_all _ main_arg10 (by decide) (by decide) (by decide) (by decide) (by decide) (by decide) (by decide)).trans rfl),
      (h c main_arg11).trans ((keep_all _ main_arg11 (by decide) (by decide) (by decide) (by decide) (by decide) (by decide) (by decide)).trans rfl)⟩)
    (run_seq scopedRefs_eq scopedSems_eq defs main (fun _ => ops) main_eq (fun _ => ops_sub) m ρ)

end Cert.ReferenceIdeal.RunP

end
-- ==== Proof.Spec.lean ====
/-
  What both programs compute, as functions of the argument arrays read index by index on the extended reals.

  An edge's input row x (192 features) goes through three affine layers, each followed by the leaky rectifier
  y ↦ y if y ≥ 0 else s·y (s the binary32 word 0x3C23D70A): `hidden`.  The last layer's activations h[e, j] over the
  400000 edges are then normalised per feature j with the batch's own mean and (biased) variance and an affine map
  g[j]·(h − mean)·(var + ε)^(-1/2) + β[j].

  The two programs differ only in how the batch statistics are formed:
  * `refOut`: mean = (0 + Σ_e h)/N and var = (0 + Σ_e (h − mean)²)/N, each a single sum over all edges;
  * `kerOut`: the sums Σ h and Σ h² are accumulated block by block (100 blocks of 4000 consecutive edges, a running
    sum started from zero), and var = Σh²/N − mean².
-/
import Idealize.ShloMosaic.PureOps.Ideal
import Idealize.ShloMosaic.Lib.ValueIdx

noncomputable section

namespace Cert.Spec

open Idealize.ShloMosaic Idealize.ShloMosaic.ValueIdx

/-- A matrix of extended reals, indexed as the programs' rank-2 arrays are. -/
abbrev Mat (a b : Nat) := (⟨2, ![a, b]⟩ : Shape).Idx → EReal

/-- The words the programs spell: zero, the rectifier's slope, the batch size 400000.0 and the variance's ε. -/
abbrev zeroW : EReal := Ideal.ofBits .f32 0x00000000#32
abbrev slopeW : EReal := Ideal.ofBits .f32 0x3C23D70A#32
abbrev countW : EReal := Ideal.ofBits .f32 0x48C35000#32
abbrev epsW : EReal := Ideal.ofBits .f32 0x3727C5AC#32

/-- The leaky rectifier: `y` where `y ≥ 0`, else `slope · y`. -/
def lrelu (y : EReal) : EReal :=
  Scalar.select (Ideal.cmp .oge y zeroW) y (slopeW * y)

/-- One affine layer followed by the rectifier, at output feature `j`: `lrelu (Σ_k a[k]·w[k, j] + b[j])`. -/
def layer {K : Nat} (a : Fin K → EReal) (w : Mat K 128) (b : Fin 128 → EReal) (j : Fin 128) : EReal :=
  lrelu (∑ k : Fin K, a k * w (ix2 k j) + b j)

/-- The three layers applied to one input row. -/
def hidden (x : Fin 192 → EReal) (W1 : Mat 192 128) (b1 : Fin 128 → EReal) (W2 : Mat 128 128) (b2 : Fin 128 → EReal)
    (W3 : Mat 128 128) (b3 : Fin 128 → EReal) (j : Fin 128) : EReal :=
  layer (layer (layer x W1 b1) W2 b2) W3 b3 j

/-- The activations of every edge: row `e` of the input matrix through the three layers. -/
def acts (X : Mat 400000 192) (W1 : Mat 192 128) (b1 : Fin 128 → EReal) (W2 : Mat 128 128) (b2 : Fin 128 → EReal)
    (W3 : Mat 128 128) (b3 : Fin 128 → EReal) (e : Fin 400000) (j : Fin 128) : EReal :=
  hidden (fun k => X (ix2 e k)) W1 b1 W2 b2 W3 b3 j

/-- The normalisation with given statistics: `g·(h − mean)·inv + β`. -/
def affineNorm (g β : Fin 128 → EReal) (h mean inv : EReal) (j : Fin 128) : EReal :=
  g j * (h - mean) * inv + β j

/-! ### The reference's statistics: two whole sums -/

def refMean (h : Fin 400000 → Fin 128 → EReal) (j : Fin 128) : EReal :=
  Ideal.div (zeroW + ∑ e : Fin 400000, h e j) countW

def refVar (h : Fin 400000 → Fin 128 → EReal) (j : Fin 128) : EReal :=
  Ideal.div (zeroW + ∑ e : Fin 400000, (h e j - refMean h j) * (h e j - refMean h j)) countW

def refOut (h : Fin 400000 → Fin 128 → EReal) (g β : Fin 128 → EReal) (e : Fin 400000) (j : Fin 128) : EReal :=
  affineNorm g β (h e j) (refMean h j) (Ideal.rsqrt (refVar h j + epsW)) j

/-! ### The kernel's statistics: running sums over 100 blocks of 4000 edges -/

/-- A running sum over blocks `0 … n`, started from the zero word: `((0 + f 0) + f 1) + … + f n`. -/
def runSum (f : ℕ → EReal) : ℕ → EReal
  | 0 => zeroW + f 0
  | n + 1 => runSum f n + f (n + 1)

/-- Block `t`'s column sum of `u`: over its 4000 consecutive edges. -/
def blockSum (u : ℕ → EReal) (t : ℕ) : EReal := ∑ r : Fin 4000, u (4000 * t + r.val)

/-- `h` read at a natural-number edge (zero past the end; never read there). -/
def atNat (h : Fin 400000 → Fin 128 → EReal) (j : Fin 128) (n : ℕ) : EReal :=
  if hn : n < 400000 then h ⟨n, hn⟩ j else 0

def kerSum (h : Fin 400000 → Fin 128 → EReal) (j : Fin 128) : EReal :=
  runSum (blockSum (atNat h j)) 99

def kerSumSq (h : Fin 400000 → Fin 128 → EReal) (j : Fin 128) : EReal :=
  runSum (blockSum fun n => atNat h j n * atNat h j n) 99

def kerMean (h : Fin 400000 → Fin 128 → EReal) (j : Fin 128) : EReal := Ideal.div (kerSum h j) countW

def kerVar (h : Fin 400000 → Fin 128 → EReal) (j : Fin 128) : EReal :=
  Ideal.div (kerSumSq h j) countW - kerMean h j * kerMean h j

def kerOut (h : Fin 400000 → Fin 128 → EReal) (g β : Fin 128 → EReal) (e : Fin 400000) (j : Fin 128) : EReal :=
  affineNorm g β (h e j) (kerMean h j) (Ideal.rsqrt (kerVar h j + epsW)) j

end Cert.Spec

end
-- ==== Proof.RefRead.lean ====
/-
  The reference program read at an index.

  The reference computes, for every edge e and feature j, three affine layers with a leaky rectifier on the row
  x[e, ·] of its (gathered and joined) input, then normalises the activations h[e, j] with the batch mean
  (0 + Σ_e h)/N and the batch variance (0 + Σ_e (h − mean)²)/N, each a single sum over all edges, and applies
  g[j]·(h − mean)·(var + ε)^(-1/2) + β[j].  This module reads the generated stage-by-stage description of that
  program at one index (e, j) and identifies the result with `Cert.Spec.refOut` of `Cert.Spec.acts`.

  The joined input matrix (stage 15) is never opened: everything below is a function of its entries.
-/
import proofs.«163272_j69861938037523_1_alg».proof.Proof.Spec
import proofs.«163272_j69861938037523_1_alg».proof.Proof.RefReadPatched
import Idealize.ShloMosaic.Lib.ValueIdx
import Idealize.ShloMosaic.PureOps.Ideal.Laws

noncomputable section

namespace Cert.RefRead

open Cert.ReferenceIdeal Cert.ReferenceIdeal.Gen Cert.ReferenceIdeal.ReadP
open Idealize.ShloMosaic Idealize.ShloMosaic.ValueIdx Idealize.ShloMosaic.StableHlo

/-! ### Where each stage reads its operands -/

/-- A matrix product's element (e, j) reads the left operand along row e. -/
theorem lidx16 (e : Fin 400000) (j : Fin 128) (k : Fin 192) : lidx_main_v16 (ix2 e j) k = ix2 e k :=
  funext fun a => by match a with | ⟨0, _⟩ => rfl | ⟨1, _⟩ => rfl
/-- … and the right operand along column j. -/
theorem ridx16 (e : Fin 400000) (j : Fin 128) (k : Fin 192) : ridx_main_v16 (ix2 e j) k = ix2 k j :=
  funext fun a => by match a with | ⟨0, _⟩ => rfl | ⟨1, _⟩ => rfl
theorem lidx25 (e : Fin 400000) (j : Fin 128) (k : Fin 128) : lidx_main_v25 (ix2 e j) k = ix2 e k :=
  funext fun a => by match a with | ⟨0, _⟩ => rfl | ⟨1, _⟩ => rfl
theorem ridx25 (e : Fin 400000) (j : Fin 128) (k : Fin 128) : ridx_main_v25 (ix2 e j) k = ix2 k j :=
  funext fun a => by match a with | ⟨0, _⟩ => rfl | ⟨1, _⟩ => rfl
theorem lidx34 (e : Fin 400000) (j : Fin 128) (k : Fin 128) : lidx_main_v34 (ix2 e j) k = ix2 e k :=
  funext fun a => by match a with | ⟨0, _⟩ => rfl | ⟨1, _⟩ => rfl
theorem ridx34 (e : Fin 400000) (j : Fin 128) (k : Fin 128) : ridx_main_v34 (ix2 e j) k = ix2 k j :=
  funext fun a => by match a with | ⟨0, _⟩ => rfl | ⟨1, _⟩ => rfl

/-- A per-feature vector spread over all edges is read at feature j: the two spreading steps composed. -/
theorem idx17_18 (e : Fin 400000) (j : Fin 128) : idx_main_v17 (idx_main_v18 (ix2 e j)) = ix1 j :=
  funext fun a => by match a with | ⟨0, _⟩ => rfl
theorem idx26_27 (e : Fin 400000) (j : Fin 128) : idx_main_v26 (idx_main_v27 (ix2 e j)) = ix1 j :=
  funext fun a => by match a with | ⟨0, _⟩ => rfl
theorem idx35_36 (e : Fin 400000) (j : Fin 128) : idx_main_v35 (idx_main_v36 (ix2 e j)) = ix1 j :=
  funext fun a => by match a with | ⟨0, _⟩ => rfl
theorem idx46_47 (e : Fin 400000) (j : Fin 128) : idx_main_v46 (idx_main_v47 (ix2 e j)) = ix1 j :=
  funext fun a => by match a with | ⟨0, _⟩ => rfl
theorem idx53_54 (e : Fin 400000) (j : Fin 128) : idx_main_v53 (idx_main_v54 (ix2 e j)) = ix1 j :=
  funext fun a => by match a with | ⟨0, _⟩ => rfl
theorem idx56_57 (e : Fin 400000) (j : Fin 128) : idx_main_v56 (idx_main_v57 (ix2 e j)) = ix1 j :=
  funext fun a => by match a with | ⟨0, _⟩ => rfl
theorem idx62_63 (e : Fin 400000) (j : Fin 128) : idx_main_v62 (idx_main_v63 (ix2 e j)) = ix1 j :=
  funext fun a => by match a with | ⟨0, _⟩ => rfl
theorem idx65_66 (e : Fin 400000) (j : Fin 128) : idx_main_v65 (idx_main_v66 (ix2 e j)) = ix1 j :=
  funext fun a => by match a with | ⟨0, _⟩ => rfl

/-- A sum over the edges into feature j reads element (e, j) at its e-th term. -/
theorem idx43 (j : Fin 128) (e : Fin 400000) : idx_main_v43 (ix1 j) e = ix2 e j :=
  funext fun a => by match a with | ⟨0, _⟩ => rfl | ⟨1, _⟩ => rfl
theorem idx50 (j : Fin 128) (e : Fin 400000) : idx_main_v50 (ix1 j) e = ix2 e j :=
  funext fun a => by match a with | ⟨0, _⟩ => rfl | ⟨1, _⟩ => rfl

variable (x0 : (⟨S50000x128, .f32⟩ : BufTy).Contents (Elt Ideal)) (x1 : (⟨S400000x64, .f32⟩ : BufTy).Contents (Elt Ideal))
  (x2 x3 : (⟨S400000, .i32⟩ : BufTy).Contents (Elt Ideal)) (x4 : (⟨S192x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 x10 x11 : (⟨S128, .f32⟩ : BufTy).Contents (Elt Ideal))

/-! ### The three layers -/

/-- The first layer at (e, j): the rectifier of Σ_k x[e,k]·W1[k,j] + b1[j]. -/
theorem layer1 (e : Fin 400000) (j : Fin 128) :
    val_main_v24 (F := Ideal) x0 x1 x2 x3 x4 x5 (ix2 e j)
      = Cert.Spec.layer (fun k => val_main_v15 (F := Ideal) x0 x1 x2 x3 (ix2 e k)) x4 (fun j => x5 (ix1 j)) j := by
  rw [val_main_v24_apply, val_main_v21_apply, val_main_v23_apply, val_main_v19_apply, val_main_v16_apply,
    val_main_v18_apply, val_main_v17_apply, val_main_v20_apply, val_main_v22_apply, val_main_cst_apply,
    val_main_cst_3_apply, idx17_18]
  simp only [lidx16, ridx16, Ideal.cmpf_def, Ideal.mulf_def, Ideal.addf_def, Ideal.ofBits_def]
  rfl

/-- The second layer at (e, j), on the first layer's row e. -/
theorem layer2 (e : Fin 400000) (j : Fin 128) :
    val_main_v33 (F := Ideal) x0 x1 x2 x3 x4 x5 x6 x7 (ix2 e j)
      = Cert.Spec.layer (fun k => val_main_v24 (F := Ideal) x0 x1 x2 x3 x4 x5 (ix2 e k)) x6 (fun j => x7 (ix1 j)) j := by
  rw [val_main_v33_apply, val_main_v30_apply, val_main_v32_apply, val_main_v28_apply, val_main_v25_apply,
    val_main_v27_apply, val_main_v26_apply, val_main_v29_apply, val_main_v31_apply, val_main_cst_4_apply,
    val_main_cst_5_apply, idx26_27]
  simp only [lidx25, ridx25, Ideal.cmpf_def, Ideal.mulf_def, Ideal.addf_def, Ideal.ofBits_def]
  rfl

/-- The third layer at (e, j), on the second layer's row e. -/
theorem layer3 (e : Fin 400000) (j : Fin 128) :
    val_main_v42 (F := Ideal) x0 x1 x2 x3 x4 x5 x6 x7 x8 x9 (ix2 e j)
      = Cert.Spec.layer (fun k => val_main_v33 (F := Ideal) x0 x1 x2 x3 x4 x5 x6 x7 (ix2 e k)) x8 (fun j => x9 (ix1 j)) j := by
  rw [val_main_v42_apply, val_main_v39_apply, val_main_v41_apply, val_main_v37_apply, val_main_v34_apply,
    val_main_v36_apply, val_main_v35_apply, val_main_v38_apply, val_main_v40_apply, val_main_cst_6_apply,
    val_main_cst_7_apply, idx35_36]
  simp only [lidx34, ridx34, Ideal.cmpf_def, Ideal.mulf_def, Ideal.addf_def, Ideal.ofBits_def]
  rfl

/-- The activations the reference normalises are the specification's: the three layers on row e of the input. -/
theorem h_apply (e : Fin 400000) (j : Fin 128) :
    val_main_v42 (F := Ideal) x0 x1 x2 x3 x4 x5 x6 x7 x8 x9 (ix2 e j)
      = Cert.Spec.acts (val_main_v15 (F := Ideal) x0 x1 x2 x3) x4 (fun j => x5 (ix1 j)) x6 (fun j => x7 (ix1 j)) x8
          (fun j => x9 (ix1 j)) e j := by
  rw [layer3]
  simp only [layer2, layer1]
  rfl

/-! ### The batch statistics -/

/-- The reference's mean of feature j: (0 + Σ_e h[e, j]) / N. -/
theorem mean_apply (j : Fin 128) :
    val_main_v45 (F := Ideal) x0 x1 x2 x3 x4 x5 x6 x7 x8 x9 (ix1 j)
      = Cert.Spec.refMean (Cert.Spec.acts (val_main_v15 (F := Ideal) x0 x1 x2 x3) x4 (fun j => x5 (ix1 j)) x6
          (fun j => x7 (ix1 j)) x8 (fun j => x9 (ix1 j))) j := by
  rw [val_main_v45_apply, val_main_v43_apply, val_main_v44_apply, val_main_cst_8_apply, val_main_cst_9_apply]
  simp only [idx43, h_apply, Ideal.hostDivf_def, Ideal.ofBits_def]
  rfl

/-- The reference's variance of feature j: (0 + Σ_e (h[e, j] − mean)²) / N. -/
theorem var_apply (j : Fin 128) :
    val_main_v52 (F := Ideal) x0 x1 x2 x3 x4 x5 x6 x7 x8 x9 (ix1 j)
      = Cert.Spec.refVar (Cert.Spec.acts (val_main_v15 (F := Ideal) x0 x1 x2 x3) x4 (fun j => x5 (ix1 j)) x6
          (fun j => x7 (ix1 j)) x8 (fun j => x9 (ix1 j))) j := by
  rw [val_main_v52_apply, val_main_v50_apply, val_main_v51_apply, val_main_cst_10_apply, val_main_cst_11_apply]
  simp only [idx50, val_main_v49_apply, val_main_v48_apply, val_main_v47_apply, val_main_v46_apply, idx46_47,
    mean_apply, h_apply, Ideal.hostDivf_def, Ideal.ofBits_def, Ideal.mulf_def, Ideal.subf_def]
  rfl

/-! ### The result -/

/-- The reference's output at (e, j) is the normalisation of the specification's activations with the whole-sum
    statistics. -/
theorem ref_apply (e : Fin 400000) (j : Fin 128) :
    val_main_v67 (F := Ideal) x0 x1 x2 x3 x4 x5 x6 x7 x8 x9 x10 x11 (ix2 e j)
      = Cert.Spec.refOut
          (Cert.Spec.acts (val_main_v15 (F := Ideal) x0 x1 x2 x3) x4 (fun j => x5 (ix1 j)) x6 (fun j => x7 (ix1 j)) x8
            (fun j => x9 (ix1 j)))
          (fun j => x10 (ix1 j)) (fun j => x11 (ix1 j)) e j := by
  rw [val_main_v67_apply, val_main_v64_apply, val_main_v66_apply, val_main_v65_apply, idx65_66, val_main_v58_apply,
    val_main_v63_apply, val_main_v62_apply, idx62_63, val_main_v61_apply, val_main_v60_apply, val_main_v59_apply,
    val_main_cst_12_apply, var_apply, val_main_v57_apply, val_main_v56_apply, idx56_57, val_main_v55_apply,
    val_main_v54_apply, val_main_v53_apply, idx53_54, mean_apply, h_apply]
  simp only [Ideal.hostUnary_rsqrt_def, Ideal.ofBits_def, Ideal.mulf_def, Ideal.subf_def, Ideal.addf_def]
  rfl

end Cert.RefRead

end
-- ==== Proof.KernelRun.lean ====
/-
  The idealized kernel's run with its result named.

  @main is four segments: the host operations that build the edge input matrix and re-lay the parameter rows, the
  statistics pass (a pipeline over 100 blocks of edges), the host operations that turn the two accumulated sums into a
  mean and an inverse standard deviation, and the normalising pass (a second pipeline over the same 100 blocks).  The
  buffer contents at the four boundaries are a fold from the launch memory (`Gen.W1` … `Gen.W4`).  Every weakly fair
  execution terminates, nothing faulting, with every unscoped buffer at the last boundary's contents `Gen.W4`: read
  at the result buffer this names the result, and read at an argument buffer it gives the argument back unchanged.
-/
import proofs.«163272_j69861938037523_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the twelve arguments as launched. -/
theorem run_value : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.KernelLayers.lean ====
/-
  The kernel bodies' vector operations read at an index, at the ideal values.

  A body computes one layer on a block of 4000 rows as: the matrix product of the block with the weights into a zero
  accumulator, plus the bias row spread over the 4000 rows, then the rectifier spelt as a comparison with the zero
  splat, a product with the slope splat and a selection.  Read at (r, j) this is `Spec.layer` of row r of the block —
  a row of the product depends on that row of the left operand only.  Changes of float format between layers are the
  identity on the extended reals.  A column sum of a block (a reduction over its row axis) read at column j is the
  sum over the 4000 rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«163272_j69861938037523_1_alg».proof.Proof.Spec
import proofs.«163272_j69861938037523_1_alg».proof.Proof.LibPlainDot

noncomputable section

namespace Cert.KernelLayers

open Idealize.ShloMosaic Idealize.ShloMosaic.ValueIdx Cert.Spec

/-- One layer as a body spells it on a block: product into zero, plus the spread bias row, rectified. -/
def klayer {K : Nat} {φa φw : FTy} (D : DotDims ⟨2, ![4000, K]⟩ ⟨2, ![K, 128]⟩ ⟨2, ![4000, 128]⟩)
    (a : FVec Ideal ⟨2, ![4000, K]⟩ φa) (w : FVec Ideal ⟨2, ![K, 128]⟩ φw) (b : FVec Ideal ⟨2, ![1, 128]⟩ .f32)
    (bc : (⟨2, ![1, 128]⟩ : Shape).Broadcasts ⟨2, ![4000, 128]⟩) : FVec Ideal ⟨2, ![4000, 128]⟩ .f32 :=
  select
    (cmpf .oge (addf (matmul D none a w (constant ⟨2, ![4000, 128]⟩ .f32 0x00000000#32)) (broadcastTo ⟨2, ![4000, 128]⟩ b bc))
      (broadcast ⟨2, ![4000, 128]⟩ (Scalar.ofBits (F := Ideal) .f32 0x00000000#32)))
    (addf (matmul D none a w (constant ⟨2, ![4000, 128]⟩ .f32 0x00000000#32)) (broadcastTo ⟨2, ![4000, 128]⟩ b bc))
    (mulf (broadcast ⟨2, ![4000, 128]⟩ (Scalar.ofBits (F := Ideal) .f32 0x3C23D70A#32))
      (addf (matmul D none a w (constant ⟨2, ![4000, 128]⟩ .f32 0x00000000#32)) (broadcastTo ⟨2, ![4000, 128]⟩ b bc)))

/-- The rectifier applied to a pre-activation vector, as the normalising body spells it (against the zero splat). -/
def krelu (y : FVec Ideal ⟨2, ![4000, 128]⟩ .f32) : FVec Ideal ⟨2, ![4000, 128]⟩ .f32 :=
  select (cmpf .oge y (broadcast ⟨2, ![4000, 128]⟩ (Scalar.ofBits (F := Ideal) .f32 0x00000000#32))) y
    (mulf (broadcast ⟨2, ![4000, 128]⟩ (Scalar.ofBits (F := Ideal) .f32 0x3C23D70A#32)) y)

/-- The pre-activation of a layer: product into zero plus the spread bias row. -/
def kaffine {K : Nat} {φa φw : FTy} (D : DotDims ⟨2, ![4000, K]⟩ ⟨2, ![K, 128]⟩ ⟨2, ![4000, 128]⟩)
    (a : FVec Ideal ⟨2, ![4000, K]⟩ φa) (w : FVec Ideal ⟨2, ![K, 128]⟩ φw) (b : FVec Ideal ⟨2, ![1, 128]⟩ .f32)
    (bc : (⟨2, ![1, 128]⟩ : Shape).Broadcasts ⟨2, ![4000, 128]⟩) : FVec Ideal ⟨2, ![4000, 128]⟩ .f32 :=
  addf (matmul D none a w (constant ⟨2, ![4000, 128]⟩ .f32 0x00000000#32)) (broadcastTo ⟨2, ![4000, 128]⟩ b bc)

theorem klayer_eq {K : Nat} {φa φw : FTy} (D : DotDims ⟨2, ![4000, K]⟩ ⟨2, ![K, 128]⟩ ⟨2, ![4000, 128]⟩)
    (a : FVec Ideal ⟨2, ![4000, K]⟩ φa) (w : FVec Ideal ⟨2, ![K, 128]⟩ φw) (b : FVec Ideal ⟨2, ![1, 128]⟩ .f32)
    (bc : (⟨2, ![1, 128]⟩ : Shape).Broadcasts ⟨2, ![4000, 128]⟩) : klayer D a w b bc = krelu (kaffine D a w b bc) := rfl

/-- The pre-activation at (r, j): row r of the block against column j of the weights, plus the bias at j. -/
theorem kaffine_apply {K : Nat} {φa φw : FTy} (D : DotDims ⟨2, ![4000, K]⟩ ⟨2, ![K, 128]⟩ ⟨2, ![4000, 128]⟩)
    (hD : D = DotDims.plain 4000 K 128)
    (a : FVec Ideal ⟨2, ![4000, K]⟩ φa) (w : FVec Ideal ⟨2, ![K, 128]⟩ φw) (b : FVec Ideal ⟨2, ![1, 128]⟩ .f32)
    (bc : (⟨2, ![1, 128]⟩ : Shape).Broadcasts ⟨2, ![4000, 128]⟩) (r : Fin 4000) (j : Fin 128) :
    kaffine D a w b bc (ix2 r j) = (∑ k : Fin K, a (ix2 r k) * w (ix2 k j)) + b (ix2 (0 : Fin 1) j) := by
  subst hD
  unfold kaffine
  rw [addf_apply, Cert.Lib.plain_matmul_zero_apply 4000 K 128 none a w r j, broadcastTo_1b_ab_apply b bc r j]

/-- The rectifier at an index. -/
theorem krelu_apply (y : FVec Ideal ⟨2, ![4000, 128]⟩ .f32) (i : (⟨2, ![4000, 128]⟩ : Shape).Idx) :
    krelu y i = lrelu (y i) := rfl

/-- THE LAYER AT (r, j): `Spec.layer` of row r of the block. -/
theorem klayer_apply {K : Nat} {φa φw : FTy} (D : DotDims ⟨2, ![4000, K]⟩ ⟨2, ![K, 128]⟩ ⟨2, ![4000, 128]⟩)
    (hD : D = DotDims.plain 4000 K 128)
    (a : FVec Ideal ⟨2, ![4000, K]⟩ φa) (w : FVec Ideal ⟨2, ![K, 128]⟩ φw) (b : FVec Ideal ⟨2, ![1, 128]⟩ .f32)
    (bc : (⟨2, ![1, 128]⟩ : Shape).Broadcasts ⟨2, ![4000, 128]⟩) (r : Fin 4000) (j : Fin 128) :
    klayer D a w b bc (ix2 r j) = layer (fun k => a (ix2 r k)) w (fun j => b (ix2 (0 : Fin 1) j)) j := by
  rw [klayer_eq, krelu_apply, kaffine_apply D hD]
  rfl

/-- A layer depends on its input row only through the row's entries. -/
theorem layer_congr {K : Nat} {a a' : Fin K → EReal} (h : ∀ k, a k = a' k) (w : Mat K 128) (b : Fin 128 → EReal)
    (j : Fin 128) : layer a w b j = layer a' w b j := by
  rw [show a = a' from funext h]

/-- THREE LAYERS ON A BLOCK, the format changes between them being the identity: at (r, j), `Spec.hidden` of row r. -/
theorem hidden_apply (D1 : DotDims ⟨2, ![4000, 192]⟩ ⟨2, ![192, 128]⟩ ⟨2, ![4000, 128]⟩)
    (hD1 : D1 = DotDims.plain 4000 192 128)
    (D2 : DotDims ⟨2, ![4000, 128]⟩ ⟨2, ![128, 128]⟩ ⟨2, ![4000, 128]⟩) (hD2 : D2 = DotDims.plain 4000 128 128)
    (x : FVec Ideal ⟨2, ![4000, 192]⟩ .f32) (w1 : FVec Ideal ⟨2, ![192, 128]⟩ .f32) (b1 : FVec Ideal ⟨2, ![1, 128]⟩ .f32)
    (w2 : FVec Ideal ⟨2, ![128, 128]⟩ .f32) (b2 : FVec Ideal ⟨2, ![1, 128]⟩ .f32)
    (w3 : FVec Ideal ⟨2, ![128, 128]⟩ .f32) (b3 : FVec Ideal ⟨2, ![1, 128]⟩ .f32)
    (bc : (⟨2, ![1, 128]⟩ : Shape).Broadcasts ⟨2, ![4000, 128]⟩) (hb : FTy.bf16.bits < FTy.f32.bits)
    (r : Fin 4000) (j : Fin 128) :
    klayer D2 (truncf .bf16 (klayer D2 (truncf .bf16 (klayer D1 (truncf .bf16 x hb) (truncf .bf16 w1 hb) b1 bc) hb)
        (truncf .bf16 w2 hb) b2 bc) hb) (truncf .bf16 w3 hb) b3 bc (ix2 r j)
      = Cert.Spec.hidden (fun k => x (ix2 r k)) w1 (fun j => b1 (ix2 (0 : Fin 1) j)) w2 (fun j => b2 (ix2 (0 : Fin 1) j))
          w3 (fun j => b3 (ix2 (0 : Fin 1) j)) j := by
  rw [klayer_apply D2 hD2]
  unfold Cert.Spec.hidden
  refine layer_congr (fun k => ?_) _ _ j
  show klayer D2 _ _ b2 bc (ix2 r k) = _
  rw [klayer_apply D2 hD2]
  refine layer_congr (fun k' => ?_) _ _ k
  show klayer D1 _ _ b1 bc (ix2 r k') = _
  rw [klayer_apply D1 hD1]
  rfl

/-- A block's column sum at column j: the sum over its 4000 rows. -/
theorem colSum_apply (src : FVec Ideal ⟨2, ![4000, 128]⟩ .f32)
    (h : (⟨2, ![4000, 128]⟩ : Shape).Reduces [0] ⟨1, ![128]⟩) (hφ : FKind.Formats .f32)
    (hacc : (0x00000000#32 : BitVec FTy.f32.bits) = FKind.add.neutral .f32 hφ) (j : Fin 128) :
    multiReduction .add [0] ⟨1, ![128]⟩ src 0x00000000#32 h hφ hacc (ix1 j) = ∑ r : Fin 4000, src (ix2 r j) :=
  (Ideal.multiReduction_add_single src _ h hφ hacc (ix1 j)).trans
    (Finset.sum_congr rfl fun r _ => congrArg src (funext fun a => Fin.ext (by
      match a with
      | ⟨0, _⟩ => rfl
      | ⟨1, _⟩ => rfl)))

/-- A running [1,128] accumulator plus a block's column sum re-laid as a row, at (0, j). -/
theorem accumulate_apply (acc : FVec Ideal ⟨2, ![1, 128]⟩ .f32) (src : FVec Ideal ⟨2, ![4000, 128]⟩ .f32)
    (hs : (⟨2, ![1, 128]⟩ : Shape).ShapeCasts ⟨2, ![1, 128]⟩) (hc : (⟨1, ![128]⟩ : Shape).ShapeCasts ⟨2, ![1, 128]⟩)
    (h : (⟨2, ![4000, 128]⟩ : Shape).Reduces [0] ⟨1, ![128]⟩) (hφ : FKind.Formats .f32)
    (hacc : (0x00000000#32 : BitVec FTy.f32.bits) = FKind.add.neutral .f32 hφ) (u : Fin 1) (j : Fin 128) :
    addf (shapeCast ⟨2, ![1, 128]⟩ acc hs)
        (shapeCast ⟨2, ![1, 128]⟩ (multiReduction .add [0] ⟨1, ![128]⟩ src 0x00000000#32 h hφ hacc) hc) (ix2 u j)
      = acc (ix2 u j) + ∑ r : Fin 4000, src (ix2 r j) := by
  rw [addf_apply, shapeCast_self, shapeCast_a_1a_apply _ hc u j, colSum_apply]

end Cert.KernelLayers

end
-- ==== Proof.NormRegion.lean ====
/-
  What the normalising pass leaves in the result array, as one function of the arrays it reads.

  The pass runs over 100 blocks of 4000 consecutive edges.  At block t it reads rows 4000t … 4000t + 3999 of the edge
  input matrix, the whole weight matrices and bias rows, and the four [1,128] rows mean, inverse deviation, scale and
  shift; it recomputes the three layers on the block and stores g·(h − mean)·inv + β into rows 4000t … 4000t + 3999 of
  the result.  Row r of block t is edge 4000t + r, and a row of the layers depends on that row of the input only; the
  100 blocks tile the result.  So the result at (e, j) is the normalisation of `Spec.hidden` of input row e.
-/
import proofs.«163272_j69861938037523_1_alg».proof.Proof.Gen.KernelIdeal.Frame
import proofs.«163272_j69861938037523_1_alg».proof.Proof.KernelLayers
import Idealize.ShloMosaic.Lib.Pipeline.Value

set_option maxRecDepth 16384

noncomputable section

namespace Cert.KernelIdeal.NormRegion

open Cert.KernelIdeal Cert.KernelIdeal.Gen
open Idealize.ShloMosaic Idealize.ShloMosaic.TcCoe Idealize.ShloMosaic.ValueIdx Idealize.SL.Sem
open Idealize.ShloMosaic.Pipeline (Dat)
open Cert.Spec Cert.KernelLayers

variable (V : (c : Dev nD) → (b : Ref sig .tc) → Buf (Elt Ideal) ((c : Thread nD τ).loc b))

theorem hz : (![0, 0] : Fin 2 → Nat) = fun _ => 0 := funext fun a => by fin_cases a <;> rfl

theorem dot1_plain : dot_S4000x192_S192x128_S4000x128_1_0_0_1_n_n = DotDims.plain 4000 192 128 := rfl
theorem dot2_plain : dot_S4000x128_S128x128_S4000x128_1_0_0_1_n_n = DotDims.plain 4000 128 128 := rfl

/-- The body's stored value at (r, j): the three layers on row r of the block, normalised with the four rows. -/
theorem payload_apply (x : FVec Ideal S4000x192 .f32) (w1 : FVec Ideal S192x128 .f32) (b1 : FVec Ideal S1x128 .f32)
    (w2 : FVec Ideal S128x128 .f32) (b2 : FVec Ideal S1x128 .f32) (w3 : FVec Ideal S128x128 .f32)
    (b3 : FVec Ideal S1x128 .f32) (g mean inv β : FVec Ideal S1x128 .f32) (r : Fin 4000) (j : Fin 128) :
    k1_pay1 (k1_pay2 x w1 b1 w2 b2 w3 b3) (k1_pay3 (F := Ideal)) g mean inv β (ix2 r j)
      = affineNorm (fun j => g (ix2 (0 : Fin 1) j)) (fun j => β (ix2 (0 : Fin 1) j))
          (Cert.Spec.hidden (fun k => x (ix2 r k)) w1 (fun j => b1 (ix2 (0 : Fin 1) j)) w2 (fun j => b2 (ix2 (0 : Fin 1) j))
            w3 (fun j => b3 (ix2 (0 : Fin 1) j)) j)
          (mean (ix2 (0 : Fin 1) j)) (inv (ix2 (0 : Fin 1) j)) j := by
  unfold k1_pay1 k1_pay2 k1_pay3
  simp only [shapeCast_self]
  show (addf (mulf (mulf (broadcastTo S4000x128 g broadcasts_S1x128_S4000x128)
        (subf
          (klayer dot_S4000x128_S128x128_S4000x128_1_0_0_1_n_n
            (truncf .bf16
              (klayer dot_S4000x128_S128x128_S4000x128_1_0_0_1_n_n
                (truncf .bf16
                  (klayer dot_S4000x192_S192x128_S4000x128_1_0_0_1_n_n (truncf .bf16 x bitsLt_bf16_f32)
                    (truncf .bf16 w1 bitsLt_bf16_f32) b1 broadcasts_S1x128_S4000x128) bitsLt_bf16_f32)
                (truncf .bf16 w2 bitsLt_bf16_f32) b2 broadcasts_S1x128_S4000x128) bitsLt_bf16_f32)
            (truncf .bf16 w3 bitsLt_bf16_f32) b3 broadcasts_S1x128_S4000x128)
          (broadcastTo S4000x128 mean broadcasts_S1x128_S4000x128)))
        (broadcastTo S4000x128 inv broadcasts_S1x128_S4000x128))
      (broadcastTo S4000x128 β broadcasts_S1x128_S4000x128)) (ix2 r j) = _
  rw [addf_apply, mulf_apply, mulf_apply, subf_apply, broadcastTo_1b_ab_apply g _ r j,
    broadcastTo_1b_ab_apply mean _ r j, broadcastTo_1b_ab_apply inv _ r j, broadcastTo_1b_ab_apply β _ r j,
    hidden_apply _ dot1_plain _ dot2_plain]
  rfl

/-! ### The blocks, read off the arrays the pass finds -/

/-- The printed index maps over the grid: the input matrix and the result move one block of rows per point; their
    column block is 0. -/
theorem idx_facts : ∀ t : Fin cfg1.N, win1_0.index t (0 : Fin 2) = t.val ∧ win1_0.index t (1 : Fin 2) = 0
    ∧ win1_11.index t (0 : Fin 2) = t.val ∧ win1_11.index t (1 : Fin 2) = 0 :=
  (by decide +kernel : ∀ t : Fin grid1.N, _)

/-- Every other window reads its whole array at every point: block index (0, 0). -/
theorem idx_whole : ∀ t : Fin cfg1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) ∧ (∀ a : Fin 2, win1_8.index t a = 0)
    ∧ (∀ a : Fin 2, win1_9.index t a = 0) ∧ (∀ a : Fin 2, win1_10.index t a = 0) :=
  (by decide +kernel : ∀ t : Fin grid1.N, _)

/-- The edge of row r of block t. -/
abbrev edge (t : Fin cfg1.N) (r : Fin 4000) : Fin 400000 :=
  ⟨4000 * t.val + r.val, by have := t.isLt; have hN : cfg1.N = 100 := N_1; have := r.isLt; omega⟩

/-- Row r of the input matrix's block t is row 4000t + r of the matrix. -/
theorem xblk_apply (c : Dev nD) (t : Fin cfg1.N) (r : Fin 4000) (k : Fin 192) :
    iblk1 V c 0 t (ix2 r k) = V c main_v15 (ix2 (edge t r) k) := by
  obtain ⟨e0, e1, -, -⟩ := idx_facts t
  unfold iblk1
  rw [View.read_apply]
  show V c main_v15 (((cfg1.win 0).blk t).view.emb (ix2 r k)) = V c main_v15 (ix2 (edge t r) k)
  refine congrArg (V c main_v15) (funext fun a => Fin.ext ?_)
  match a with
  | ⟨0, _⟩ => show win1_0.index t (0 : Fin 2) * 4000 + 1 * r.val = 4000 * t.val + r.val; rw [e0]; omega
  | ⟨1, _⟩ => show win1_0.index t (1 : Fin 2) * 192 + 1 * k.val = k.val; rw [e1]; omega

/-- The result array the pass leaves, as one function of the arrays it finds: at (e, j) the normalisation of the three
    layers on input row e. -/
def result (c : Dev nD) : Buf (Elt Ideal) ((c : Thread nD τ).loc main_v31) := fun i =>
  affineNorm (fun j => V c main_v19 (ix2 (0 : Fin 1) j)) (fun j => V c main_v20 (ix2 (0 : Fin 1) j))
    (Cert.Spec.hidden (fun k => V c main_v15 (ix2 (⟨(i 0).val, idx2_lt0 i⟩ : Fin 400000) k)) (V c main_arg4)
      (fun j => V c main_v16 (ix2 (0 : Fin 1) j)) (V c main_arg6) (fun j => V c main_v17 (ix2 (0 : Fin 1) j))
      (V c main_arg8) (fun j => V c main_v18 (ix2 (0 : Fin 1) j)) (⟨(i 1).val, idx2_lt1 i⟩ : Fin 128))
    (V c main_v23 (ix2 (0 : Fin 1) (⟨(i 1).val, idx2_lt1 i⟩ : Fin 128)))
    (V c main_v30 (ix2 (0 : Fin 1) (⟨(i 1).val, idx2_lt1 i⟩ : Fin 128))) (⟨(i 1).val, idx2_lt1 i⟩ : Fin 128)

/-! A window that reads its whole array at block index (0, 0) reads the array. -/

theorem blk1 (c : Dev nD) (t : Fin cfg1.N) : (iblk1 V c 1 t : S192x128.Idx → EReal) = V c main_arg4 := by
  have h := (idx_whole t).1
  funext y
  unfold iblk1
  rw [View.read_apply]
  show V c main_arg4 (((cfg1.win 1).blk t).view.emb y) = V c main_arg4 y
  refine congrArg (V c main_arg4) (funext fun a => Fin.ext ?_)
  match a with
  | ⟨0, _⟩ => show win1_1.index t (0 : Fin 2) * 192 + 1 * (y 0).val = (y 0).val; rw [h 0]; omega
  | ⟨1, _⟩ => show win1_1.index t (1 : Fin 2) * 128 + 1 * (y 1).val = (y 1).val; rw [h 1]; omega

theorem blk2 (c : Dev nD) (t : Fin cfg1.N) : (iblk1 V c 2 t : S1x128.Idx → EReal) = V c main_v16 := by
  have h := (idx_whole t).2.1
  funext y
  unfold iblk1
  rw [View.read_apply]
  show V c main_v16 (((cfg1.win 2).blk t).view.emb y) = V c main_v16 y
  refine congrArg (V c main_v16) (funext fun a => Fin.ext ?_)
  match a with
  | ⟨0, _⟩ => show win1_2.index t (0 : Fin 2) * 1 + 1 * (y 0).val = (y 0).val; rw [h 0]; omega
  | ⟨1, _⟩ => show win1_2.index t (1 : Fin 2) * 128 + 1 * (y 1).val = (y 1).val; rw [h 1]; omega

theorem blk3 (c : Dev nD) (t : Fin cfg1.N) : (iblk1 V c 3 t : S128x128.Idx → EReal) = V c main_arg6 := by
  have h := (idx_whole t).2.2.1
  funext y
  unfold iblk1
  rw [View.read_apply]
  show V c main_arg6 (((cfg1.win 3).blk t).view.emb y) = V c main_arg6 y
  refine congrArg (V c main_arg6) (funext fun a => Fin.ext ?_)
  match a with
  | ⟨0, _⟩ => show win1_3.index t (0 : Fin 2) * 128 + 1 * (y 0).val = (y 0).val; rw [h 0]; omega
  | ⟨1, _⟩ => show win1_3.index t (1 : Fin 2) * 128 + 1 * (y 1).val = (y 1).val; rw [h 1]; omega

theorem blk4 (c : Dev nD) (t : Fin cfg1.N) : (iblk1 V c 4 t : S1x128.Idx → EReal) = V c main_v17 := by
  have h := (idx_whole t).2.2.2.1
  funext y
  unfold iblk1
  rw [View.read_apply]
  show V c main_v17 (((cfg1.win 4).blk t).view.emb y) = V c main_v17 y
  refine congrArg (V c main_v17) (funext fun a => Fin.ext ?_)
  match a with
  | ⟨0, _⟩ => show win1_4.index t (0 : Fin 2) * 1 + 1 * (y 0).val = (y 0).val; rw [h 0]; omega
  | ⟨1, _⟩ => show win1_4.index t (1 : Fin 2) * 128 + 1 * (y 1).val = (y 1).val; rw [h 1]; omega

theorem blk5 (c : Dev nD) (t : Fin cfg1.N) : (iblk1 V c 5 t : S128x128.Idx → EReal) = V c main_arg8 := by
  have h := (idx_whole t).2.2.2.2.1
  funext y
  unfold iblk1
  rw [View.read_apply]
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; rw [h 0]; omega
  | ⟨1, _⟩ => show win1_5.index t (1 : Fin 2) * 128 + 1 * (y 1).val = (y 1).val; rw [h 1]; omega

theorem blk6 (c : Dev nD) (t : Fin cfg1.N) : (iblk1 V c 6 t : S1x128.Idx → EReal) = V c main_v18 := by
  have h := (idx_whole t).2.2.2.2.2.1
  funext y
  unfold iblk1
  rw [View.read_apply]
  show V c main_v18 (((cfg1.win 6).blk t).view.emb y) = V c main_v18 y
  refine congrArg (V c main_v18) (funext fun a => Fin.ext ?_)
  match a with
  | ⟨0, _⟩ => show win1_6.index t (0 : Fin 2) * 1 + 1 * (y 0).val = (y 0).val; rw [h 0]; omega
  | ⟨1, _⟩ => show win1_6.index t (1 : Fin 2) * 128 + 1 * (y 1).val = (y 1).val; rw [h 1]; omega

theorem blk7 (c : Dev nD) (t : Fin cfg1.N) : (iblk1 V c 7 t : S1x128.Idx → EReal) = V c main_v23 := by
  have h := (idx_whole t).2.2.2.2.2.2.1
  funext y
  unfold iblk1
  rw [View.read_apply]
  show V c main_v23 (((cfg1.win 7).blk t).view.emb y) = V c main_v23 y
  refine congrArg (V c main_v23) (funext fun a => Fin.ext ?_)
  match a with
  | ⟨0, _⟩ => show win1_7.index t (0 : Fin 2) * 1 + 1 * (y 0).val = (y 0).val; rw [h 0]; omega
  | ⟨1, _⟩ => show win1_7.index t (1 : Fin 2) * 128 + 1 * (y 1).val = (y 1).val; rw [h 1]; omega

theorem blk8 (c : Dev nD) (t : Fin cfg1.N) : (iblk1 V c 8 t : S1x128.Idx → EReal) = V c main_v30 := by
  have h := (idx_whole t).2.2.2.2.2.2.2.1
  funext y
  unfold iblk1
  rw [View.read_apply]
  show V c main_v30 (((cfg1.win 8).blk t).view.emb y) = V c main_v30 y
  refine congrArg (V c main_v30) (funext fun a => Fin.ext ?_)
  match a with
  | ⟨0, _⟩ => show win1_8.index t (0 : Fin 2) * 1 + 1 * (y 0).val = (y 0).val; rw [h 0]; omega
  | ⟨1, _⟩ => show win1_8.index t (1 : Fin 2) * 128 + 1 * (y 1).val = (y 1).val; rw [h 1]; omega

theorem blk9 (c : Dev nD) (t : Fin cfg1.N) : (iblk1 V c 9 t : S1x128.Idx → EReal) = V c main_v19 := by
  have h := (idx_whole t).2.2.2.2.2.2.2.2.1
  funext y
  unfold iblk1
  rw [View.read_apply]
  show V c main_v19 (((cfg1.win 9).blk t).view.emb y) = V c main_v19 y
  refine congrArg (V c main_v19) (funext fun a => Fin.ext ?_)
  match a with
  | ⟨0, _⟩ => show win1_9.index t (0 : Fin 2) * 1 + 1 * (y 0).val = (y 0).val; rw [h 0]; omega
  | ⟨1, _⟩ => show win1_9.index t (1 : Fin 2) * 128 + 1 * (y 1).val = (y 1).val; rw [h 1]; omega

theorem blk10 (c : Dev nD) (t : Fin cfg1.N) : (iblk1 V c 10 t : S1x128.Idx → EReal) = V c main_v20 := by
  have h := (idx_whole t).2.2.2.2.2.2.2.2.2
  funext y
  unfold iblk1
  rw [View.read_apply]
  show V c main_v20 (((cfg1.win 10).blk t).view.emb y) = V c main_v20 y
  refine congrArg (V c main_v20) (funext fun a => Fin.ext ?_)
  match a with
  | ⟨0, _⟩ => show win1_10.index t (0 : Fin 2) * 1 + 1 * (y 0).val = (y 0).val; rw [h 0]; omega
  | ⟨1, _⟩ => show win1_10.index t (1 : Fin 2) * 128 + 1 * (y 1).val = (y 1).val; rw [h 1]; omega

/-- WHAT POINT t WRITES BACK is block t of `result`. -/
theorem flushed_eq (c : Dev nD) (t : Fin cfg1.N) :
    (dat1 V c).flushed 11 t = ((cfg1.win 11).blk t).view.read (Elt Ideal) (result V c) := by
  obtain ⟨-, -, e2, e3⟩ := idx_facts t
  show (cfg1.win 11).cut (grid1.coords t) ((dat1 V c).after 11 t) = _
  rw [after1_11]
  unfold out1_11
  rw [View.canon_unit_zero hz]
  simp only [View.ld_unit_zero (S := S4000x192) hz, View.ld_unit_zero (S := S192x128) hz,
    View.ld_unit_zero (S := S1x128) hz, View.ld_unit_zero (S := S128x128) hz]
  funext y
  obtain ⟨r, j, rfl⟩ : ∃ (r : Fin 4000) (j : Fin 128), y = ix2 r j := ⟨y 0, y 1, eq_ix2 y⟩
  rw [View.read_apply]
  have hemb : ((cfg1.win 11).blk t).view.emb (ix2 r j) = ix2 (edge t r) j := funext fun a => Fin.ext (by
    match a with
    | ⟨0, _⟩ => show win1_11.index t (0 : Fin 2) * 4000 + 1 * r.val = 4000 * t.val + r.val; rw [e2]; omega
    | ⟨1, _⟩ => show win1_11.index t (1 : Fin 2) * 128 + 1 * j.val = j.val; rw [e3]; omega)
  rw [hemb]
  refine (payload_apply (iblk1 V c 0 t) (iblk1 V c 1 t) (iblk1 V c 2 t) (iblk1 V c 3 t) (iblk1 V c 4 t) (iblk1 V c 5 t)
    (iblk1 V c 6 t) (iblk1 V c 9 t) (iblk1 V c 7 t) (iblk1 V c 8 t) (iblk1 V c 10 t) r j).trans ?_
  rw [blk1, blk2, blk3, blk4, blk5, blk6, blk7, blk8, blk9, blk10]
  simp only [xblk_apply]
  rfl

/-- An index of the result is in point t's block iff each coordinate is in the block's range on its axis. -/
theorem mem_blk (t : Fin cfg1.N) (i : S400000x128.Idx) :
    i ∈ ((cfg1.win 11).blk t).view.set ↔ ∀ a : Fin 2, win1_11.index t a * S4000x128.size a ≤ (i a).val
      ∧ (i a).val < win1_11.index t a * S4000x128.size a + S4000x128.size a := by
  show i ∈ ((View.whole main_v31).slice (win1_11.rect t)).set ↔ _
  rw [View.set_slice_whole, Rect.mem_set_unit]
  exact Iff.rfl

/-- The 100 blocks tile the result: row e is in block e / 4000. -/
theorem cover (i : S400000x128.Idx) :
    ∃ t : Fin cfg1.N, (cfg1.win 11).flush t = true ∧ i ∈ ((cfg1.win 11).blk t).view.set := by
  have hN : cfg1.N = 100 := N_1
  have hi0 : (i 0).val < 400000 := (i 0).isLt
  have hi1 : (i 1).val < 128 := (i 1).isLt
  have ht : (i 0).val / 4000 < cfg1.N := by rw [hN]; omega
  obtain ⟨-, -, e2, e3⟩ := idx_facts ⟨(i 0).val / 4000, ht⟩
  refine ⟨⟨(i 0).val / 4000, ht⟩, flush1_11 _, ?_⟩
  rw [mem_blk]
  intro a
  match a with
  | ⟨0, _⟩ =>
    show win1_11.index ⟨(i 0).val / 4000, ht⟩ (0 : Fin 2) * 4000 ≤ (i 0).val
      ∧ (i 0).val < win1_11.index ⟨(i 0).val / 4000, ht⟩ (0 : Fin 2) * 4000 + 4000
    rw [e2]; show (i 0).val / 4000 * 4000 ≤ (i 0).val ∧ (i 0).val < (i 0).val / 4000 * 4000 + 4000; omega
  | ⟨1, _⟩ =>
    show win1_11.index ⟨(i 0).val / 4000, ht⟩ (1 : Fin 2) * 128 ≤ (i 1).val
      ∧ (i 1).val < win1_11.index ⟨(i 0).val / 4000, ht⟩ (1 : Fin 2) * 128 + 128
    rw [e3]; omega

/-- THE RESULT ARRAY after the pass. -/
theorem final (c : Dev nD) : (dat1 V c).arrAt 11 cfg1.N = result V c :=
  (dat1 V c).arrAt_eq_of_cover 11 (result V c) (fun t _ => flushed_eq V c t) (cover)

/-- The result at (e, j): the normalisation of the three layers on input row e. -/
theorem final_apply (c : Dev nD) (e : Fin 400000) (j : Fin 128) :
    (dat1 V c).arrAt 11 cfg1.N (ix2 e j)
      = affineNorm (fun j => V c main_v19 (ix2 (0 : Fin 1) j)) (fun j => V c main_v20 (ix2 (0 : Fin 1) j))
          (Cert.Spec.hidden (fun k => V c main_v15 (ix2 e k)) (V c main_arg4) (fun j => V c main_v16 (ix2 (0 : Fin 1) j))
            (V c main_arg6) (fun j => V c main_v17 (ix2 (0 : Fin 1) j)) (V c main_arg8)
            (fun j => V c main_v18 (ix2 (0 : Fin 1) j)) j)
          (V c main_v23 (ix2 (0 : Fin 1) j)) (V c main_v30 (ix2 (0 : Fin 1) j)) j := by
  rw [final]
  rfl

end Cert.KernelIdeal.NormRegion

end
-- ==== Proof.StatsRegion.lean ====
/-
  WHAT THE STATISTICS PASS LEAVES IN ITS TWO ACCUMULATORS.

  The pass visits the 400000 rows of the input matrix in 100 blocks of 4000 consecutive rows. At every point it takes
  the block through the three layers and adds, to a [1,128] accumulator, the column sum of the resulting hidden block,
  and to a second one the column sum of its squares; at the first point both accumulators are first set to the zero
  row; they are written back after the last point only. So, feature by feature, the first array ends holding the
  running sum `((0 + s₀) + s₁) + … + s₉₉` of the blocks' column sums of the activations (`Spec.kerSum`), the second
  the same of the squared activations (`Spec.kerSumSq`).

  The road: what each of the two cases of the body (first point / later point) leaves in an accumulator's buffer is its
  last store's payload (`out_A_·`, `out_B_·`); at the ideal values that payload, read at (0, j), is the accumulator
  plus the sum over the block's rows of `Spec.hidden` of the row (`pay2_apply`, `pay3_apply`); the block the first
  window reads at point t is rows 4000 t … 4000 t + 3999 of the input matrix, and the other six windows read whole
  arrays (`iblk_·`); by induction on the point the buffers hold the running sums (`outsAt_eq`); and the one
  write-back, at point 99, covers each array (`final_·`).
-/
import proofs.«163272_j69861938037523_1_alg».proof.Proof.Gen.KernelIdeal.Frame
import proofs.«163272_j69861938037523_1_alg».proof.Proof.Spec
import proofs.«163272_j69861938037523_1_alg».proof.Proof.KernelLayers
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.StatsRegion

open Cert.KernelIdeal Cert.KernelIdeal.Gen

section Cases
variable {F : FTy → Type} [FloatOps F]

theorem hz : (![0, 0] : Fin 2 → Nat) = fun _ => 0 := funext fun a => by fin_cases a <;> rfl

/-- A later point's value of accumulator 7: the one covering store's payload, its loads reading the whole buffers. -/
theorem out_B_7 (c : Dev nD) (i : grid0.Coords) (arg1 : Memref sig .tc .vmem S4000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x192 .f32) (x1 : Vec F S192x128 .f32) (x2 : Vec F S1x128 .f32) (x3 : Vec F S128x128 .f32) (x4 : Vec F S1x128 .f32) (x5 : Vec F S128x128 .f32) (x6 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 x6 xo7 xo8
      = k0_pay2 (k0_pay6 x6) (k0_pay7 x0 x1 x2 x3 x4) (k0_pay8 x5) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S4000x192) hz, View.ld_unit_zero (S := S192x128) hz, View.ld_unit_zero (S := S1x128) hz, View.ld_unit_zero (S := S128x128) hz]

/-- A later point's value of accumulator 8: the one covering store's payload, its loads reading the whole buffers. -/
theorem out_B_8 (c : Dev nD) (i : grid0.Coords) (arg1 : Memref sig .tc .vmem S4000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S4000x192 .f32) (x1 : Vec F S192x128 .f32) (x2 : Vec F S1x128 .f32) (x3 : Vec F S128x128 .f32) (x4 : Vec F S1x128 .f32) (x5 : Vec F S128x128 .f32) (x6 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 x6 xo7 xo8
      = k0_pay3 (k0_pay6 x6) (k0_pay7 x0 x1 x2 x3 x4) (k0_pay8 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S4000x192) hz, View.ld_unit_zero (S := S192x128) hz, View.ld_unit_zero (S := S1x128) hz, View.ld_unit_zero (S := S128x128) hz]

/-- The first point's value of accumulator 7: the zero row is stored, read back, and added to. -/
theorem out_A_7 (c : Dev nD) (i : grid0.Coords) (arg1 : Memref sig .tc .vmem S4000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x192 .f32) (x1 : Vec F S192x128 .f32) (x2 : Vec F S1x128 .f32) (x3 : Vec F S128x128 .f32) (x4 : Vec F S1x128 .f32) (x5 : Vec F S128x128 .f32) (x6 : Vec F S1x128 .f32) :
    out0_A_7 c i arg1 harg1 arg2 harg2 arg3 harg3 arg4 harg4 arg5 harg5 arg6 harg6 arg7 harg7 arg8 harg8 arg9 harg9 hc0 x0 x1 x2 x3 x4 x5 x6
      = k0_pay2 (k0_pay6 x6) (k0_pay7 x0 x1 x2 x3 x4) (k0_pay8 x5) k0_pay4 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread,
    View.ld_unit_zero (S := S4000x192) hz, View.ld_unit_zero (S := S192x128) hz, View.ld_unit_zero (S := S1x128) hz, View.ld_unit_zero (S := S128x128) hz]

/-- The first point's value of accumulator 8: the zero row is stored, read back, and added to. -/
theorem out_A_8 (c : Dev nD) (i : grid0.Coords) (arg1 : Memref sig .tc .vmem S4000x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S4000x192 .f32) (x1 : Vec F S192x128 .f32) (x2 : Vec F S1x128 .f32) (x3 : Vec F S128x128 .f32) (x4 : Vec F S1x128 .f32) (x5 : Vec F S128x128 .f32) (x6 : Vec F S1x128 .f32) :
    out0_A_8 c i arg1 harg1 arg2 harg2 arg3 harg3 arg4 harg4 arg5 harg5 arg6 harg6 arg7 harg7 arg8 harg8 arg9 harg9 hc0 x0 x1 x2 x3 x4 x5 x6
      = k0_pay3 (k0_pay6 x6) (k0_pay7 x0 x1 x2 x3 x4) (k0_pay8 x5) k0_pay5 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread,
    View.ld_unit_zero (S := S4000x192) hz, View.ld_unit_zero (S := S192x128) hz, View.ld_unit_zero (S := S1x128) hz, View.ld_unit_zero (S := S128x128) hz]

end Cases

section Blocks
variable {F : FTy → Type} [FloatOps F]
variable (V : (c : Dev nD) → (b : Ref sig .tc) → Buf (Elt F) ((c : Thread nD τ).loc b))

theorem N100 : cfg0.N = 100 := N_0

/-- Window 0's block at point `t` is rows `4000 t … 4000 t + 3999` of the input matrix. -/
theorem iblk_0 (c : Dev nD) (t : Fin cfg0.N) (r : Fin 4000) (k : Fin 192) :
    (iblk0 V c 0 t : Vec F S4000x192 .f32) (ValueIdx.ix2 r k)
      = V c main_v15 (ValueIdx.ix2 (⟨4000 * t.val + r.val, by have := t.isLt; have := N100; have := r.isLt; omega⟩ : Fin 400000) k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_v15 _ = V c main_v15 _
  congr 1
  funext a
  apply Fin.ext
  match a with
  | ⟨0, _⟩ => show win0_0.index t 0 * 4000 + 1 * r.val = 4000 * t.val + r.val; rw [hi.1]; omega
  | ⟨1, _⟩ => show win0_0.index t 1 * 192 + 1 * k.val = k.val; rw [hi.2]; omega

/-- Window 1's block is the whole array `main_arg4` at every point (block index `(0, 0)`, block = array). -/
theorem iblk_1 (c : Dev nD) (t : Fin cfg0.N) : (iblk0 V c 1 t : Vec F S192x128 .f32) = V c main_arg4 := by
  have hi : win0_1.index t 0 = 0 ∧ win0_1.index t 1 = 0 :=
    (by decide +kernel : ∀ t : Fin grid0.N, win0_1.index t 0 = 0 ∧ win0_1.index t 1 = 0) t
  funext j
  unfold iblk0
  rw [View.read_apply]
  show V c main_arg4 _ = V c main_arg4 j
  congr 1
  funext a
  apply Fin.ext
  match a with
  | ⟨0, _⟩ => show win0_1.index t 0 * 192 + 1 * (j 0).val = (j 0).val; rw [hi.1]; omega
  | ⟨1, _⟩ => show win0_1.index t 1 * 128 + 1 * (j 1).val = (j 1).val; rw [hi.2]; omega

/-- Window 2's block is the whole array `main_v16` at every point (block index `(0, 0)`, block = array). -/
theorem iblk_2 (c : Dev nD) (t : Fin cfg0.N) : (iblk0 V c 2 t : Vec F S1x128 .f32) = V c main_v16 := by
  have hi : win0_2.index t 0 = 0 ∧ win0_2.index t 1 = 0 :=
    (by decide +kernel : ∀ t : Fin grid0.N, win0_2.index t 0 = 0 ∧ win0_2.index t 1 = 0) t
  funext j
  unfold iblk0
  rw [View.read_apply]
  show V c main_v16 _ = V c main_v16 j
  congr 1
  funext a
  apply Fin.ext
  match a with
  | ⟨0, _⟩ => show win0_2.index t 0 * 1 + 1 * (j 0).val = (j 0).val; rw [hi.1]; omega
  | ⟨1, _⟩ => show win0_2.index t 1 * 128 + 1 * (j 1).val = (j 1).val; rw [hi.2]; omega

/-- Window 3's block is the whole array `main_arg6` at every point (block index `(0, 0)`, block = array). -/
theorem iblk_3 (c : Dev nD) (t : Fin cfg0.N) : (iblk0 V c 3 t : Vec F S128x128 .f32) = V c main_arg6 := by
  have hi : win0_3.index t 0 = 0 ∧ win0_3.index t 1 = 0 :=
    (by decide +kernel : ∀ t : Fin grid0.N, win0_3.index t 0 = 0 ∧ win0_3.index t 1 = 0) t
  funext j
  unfold iblk0
  rw [View.read_apply]
  show V c main_arg6 _ = V c main_arg6 j
  congr 1
  funext a
  apply Fin.ext
  match a with
  | ⟨0, _⟩ => show win0_3.index t 0 * 128 + 1 * (j 0).val = (j 0).val; rw [hi.1]; omega
  | ⟨1, _⟩ => show win0_3.index t 1 * 128 + 1 * (j 1).val = (j 1).val; rw [hi.2]; omega

/-- Window 4's block is the whole array `main_v17` at every point (block index `(0, 0)`, block = array). -/
theorem iblk_4 (c : Dev nD) (t : Fin cfg0.N) : (iblk0 V c 4 t : Vec F S1x128 .f32) = V c main_v17 := by
  have hi : win0_4.index t 0 = 0 ∧ win0_4.index t 1 = 0 :=
    (by decide +kernel : ∀ t : Fin grid0.N, win0_4.index t 0 = 0 ∧ win0_4.index t 1 = 0) t
  funext j
  unfold iblk0
  rw [View.read_apply]
  show V c main_v17 _ = V c main_v17 j
  congr 1
  funext a
  apply Fin.ext
  match a with
  | ⟨0, _⟩ => show win0_4.index t 0 * 1 + 1 * (j 0).val = (j 0).val; rw [hi.1]; omega
  | ⟨1, _⟩ => show win0_4.index t 1 * 128 + 1 * (j 1).val = (j 1).val; rw [hi.2]; omega

/-- Window 5's block is the whole array `main_arg8` at every point (block index `(0, 0)`, block = array). -/
theorem iblk_5 (c : Dev nD) (t : Fin cfg0.N) : (iblk0 V c 5 t : Vec F S128x128 .f32) = V c main_arg8 := by
  have hi : win0_5.index t 0 = 0 ∧ win0_5.index t 1 = 0 :=
    (by decide +kernel : ∀ t : Fin grid0.N, win0_5.index t 0 = 0 ∧ win0_5.index t 1 = 0) t
  funext j
  unfold iblk0
  rw [View.read_apply]
  show V c main_arg8 _ = V c main_arg8 j
  congr 1
  funext a
  apply Fin.ext
  match a with
  | ⟨0, _⟩ => show win0_5.index t 0 * 128 + 1 * (j 0).val = (j 0).val; rw [hi.1]; omega
  | ⟨1, _⟩ => show win0_5.index t 1 * 128 + 1 * (j 1).val = (j 1).val; rw [hi.2]; omega

/-- Window 6's block is the whole array `main_v18` at every point (block index `(0, 0)`, block = array). -/
theorem iblk_6 (c : Dev nD) (t : Fin cfg0.N) : (iblk0 V c 6 t : Vec F S1x128 .f32) = V c main_v18 := by
  have hi : win0_6.index t 0 = 0 ∧ win0_6.index t 1 = 0 :=
    (by decide +kernel : ∀ t : Fin grid0.N, win0_6.index t 0 = 0 ∧ win0_6.index t 1 = 0) t
  funext j
  unfold iblk0
  rw [View.read_apply]
  show V c main_v18 _ = V c main_v18 j
  congr 1
  funext a
  apply Fin.ext
  match a with
  | ⟨0, _⟩ => show win0_6.index t 0 * 1 + 1 * (j 0).val = (j 0).val; rw [hi.1]; omega
  | ⟨1, _⟩ => show win0_6.index t 1 * 128 + 1 * (j 1).val = (j 1).val; rw [hi.2]; omega

end Blocks

section Payloads

open Idealize.ShloMosaic.ValueIdx Cert.Spec

/-- Two triples of layers on rows with the same entries, through the same weights and biases, agree. -/
theorem hidden_congr {x x' : Fin 192 → EReal} {W1 W1' : Mat 192 128} {b1 b1' : Fin 128 → EReal} {W2 W2' : Mat 128 128}
    {b2 b2' : Fin 128 → EReal} {W3 W3' : Mat 128 128} {b3 b3' : Fin 128 → EReal}
    (hx : x = x') (h1 : W1 = W1') (g1 : b1 = b1') (h2 : W2 = W2') (g2 : b2 = b2') (h3 : W3 = W3') (g3 : b3 = b3') (j : Fin 128) :
    hidden x W1 b1 W2 b2 W3 b3 j = hidden x' W1' b1' W2' b2' W3' b3' j := by
  subst hx h1 g1 h2 g2 h3 g3; rfl

/-- THE HIDDEN BLOCK at (r, j): the three layers of row r of the input block. -/
theorem pay1_apply (x : FVec Ideal S4000x192 .f32) (w1 : FVec Ideal S192x128 .f32) (b1 : FVec Ideal S1x128 .f32)
    (w2 : FVec Ideal S128x128 .f32) (b2 : FVec Ideal S1x128 .f32) (w3 : FVec Ideal S128x128 .f32) (b3 : FVec Ideal S1x128 .f32)
    (r : Fin 4000) (j : Fin 128) :
    k0_pay1 (F := Ideal) (k0_pay6 b3) (k0_pay7 x w1 b1 w2 b2) (k0_pay8 w3) (ix2 r j)
      = hidden (fun k => x (ix2 r k)) w1 (fun j => b1 (ix2 (0 : Fin 1) j)) w2 (fun j => b2 (ix2 (0 : Fin 1) j))
          w3 (fun j => b3 (ix2 (0 : Fin 1) j)) j := by
  unfold k0_pay6 k0_pay7 k0_pay8
  simp only [shapeCast_self]
  exact Cert.KernelLayers.hidden_apply dot_S4000x192_S192x128_S4000x128_1_0_0_1_n_n rfl
    dot_S4000x128_S128x128_S4000x128_1_0_0_1_n_n rfl x w1 b1 w2 b2 w3 b3 broadcasts_S1x128_S4000x128 bitsLt_bf16_f32 r j

/-- THE SUM ACCUMULATOR'S STEP at (0, j): the accumulator plus the column sum of the hidden block. -/
theorem pay2_apply (x : FVec Ideal S4000x192 .f32) (w1 : FVec Ideal S192x128 .f32) (b1 : FVec Ideal S1x128 .f32)
    (w2 : FVec Ideal S128x128 .f32) (b2 : FVec Ideal S1x128 .f32) (w3 : FVec Ideal S128x128 .f32) (b3 : FVec Ideal S1x128 .f32)
    (acc : FVec Ideal S1x128 .f32) (u : Fin 1) (j : Fin 128) :
    k0_pay2 (k0_pay6 b3) (k0_pay7 x w1 b1 w2 b2) (k0_pay8 w3) acc (ix2 u j)
      = acc (ix2 u j) + ∑ r : Fin 4000, hidden (fun k => x (ix2 r k)) w1 (fun j => b1 (ix2 (0 : Fin 1) j)) w2
          (fun j => b2 (ix2 (0 : Fin 1) j)) w3 (fun j => b3 (ix2 (0 : Fin 1) j)) j := by
  refine (Cert.KernelLayers.accumulate_apply acc (k0_pay1 (F := Ideal) (k0_pay6 b3) (k0_pay7 x w1 b1 w2 b2) (k0_pay8 w3))
    shapeCasts_S1x128_S1x128 shapeCasts_S128_S1x128 reduces_S4000x128_S128 (.inl rfl) rfl u j).trans ?_
  refine congrArg (fun s => acc (ix2 u j) + s) ?_
  exact Finset.sum_congr rfl fun r _ => pay1_apply x w1 b1 w2 b2 w3 b3 r j

/-- THE SQUARE ACCUMULATOR'S STEP at (0, j): the accumulator plus the column sum of the hidden block's squares. -/
theorem pay3_apply (x : FVec Ideal S4000x192 .f32) (w1 : FVec Ideal S192x128 .f32) (b1 : FVec Ideal S1x128 .f32)
    (w2 : FVec Ideal S128x128 .f32) (b2 : FVec Ideal S1x128 .f32) (w3 : FVec Ideal S128x128 .f32) (b3 : FVec Ideal S1x128 .f32)
    (acc : FVec Ideal S1x128 .f32) (u : Fin 1) (j : Fin 128) :
    k0_pay3 (k0_pay6 b3) (k0_pay7 x w1 b1 w2 b2) (k0_pay8 w3) acc (ix2 u j)
      = acc (ix2 u j) + ∑ r : Fin 4000,
          hidden (fun k => x (ix2 r k)) w1 (fun j => b1 (ix2 (0 : Fin 1) j)) w2 (fun j => b2 (ix2 (0 : Fin 1) j)) w3
              (fun j => b3 (ix2 (0 : Fin 1) j)) j
            * hidden (fun k => x (ix2 r k)) w1 (fun j => b1 (ix2 (0 : Fin 1) j)) w2 (fun j => b2 (ix2 (0 : Fin 1) j)) w3
              (fun j => b3 (ix2 (0 : Fin 1) j)) j := by
  refine (Cert.KernelLayers.accumulate_apply acc
    (mulf (k0_pay1 (F := Ideal) (k0_pay6 b3) (k0_pay7 x w1 b1 w2 b2) (k0_pay8 w3)) (k0_pay1 (F := Ideal) (k0_pay6 b3) (k0_pay7 x w1 b1 w2 b2) (k0_pay8 w3)))
    shapeCasts_S1x128_S1x128 shapeCasts_S128_S1x128 reduces_S4000x128_S128 (.inl rfl) rfl u j).trans ?_
  refine congrArg (fun s => acc (ix2 u j) + s) ?_
  refine Finset.sum_congr rfl fun r _ => ?_
  rw [mulf_apply, pay1_apply x w1 b1 w2 b2 w3 b3 r j]

end Payloads

section Fold

open Idealize.ShloMosaic.ValueIdx Cert.Spec

variable (V : (c : Dev nD) → (b : Ref sig .tc) → Buf (Elt Ideal) ((c : Thread nD τ).loc b))

/-- The activations of every edge, as the region finds its arrays: the input matrix through the three layers. -/
abbrev actsOf (c : Dev nD) : Fin 400000 → Fin 128 → EReal :=
  Cert.Spec.acts (V c main_v15) (V c main_arg4) (fun j => V c main_v16 (ValueIdx.ix2 (0 : Fin 1) j)) (V c main_arg6)
    (fun j => V c main_v17 (ValueIdx.ix2 (0 : Fin 1) j)) (V c main_arg8) (fun j => V c main_v18 (ValueIdx.ix2 (0 : Fin 1) j))

/-- Row `r` of point `t`'s input block through the three layers is the activation of edge `4000 t + r`. -/
theorem hidden_blk (c : Dev nD) (t : Fin cfg0.N) (r : Fin 4000) (j : Fin 128) :
    hidden (fun k => (iblk0 V c 0 t : Vec Ideal S4000x192 .f32) (ix2 r k)) (iblk0 V c 1 t : Vec Ideal S192x128 .f32)
        (fun j => (iblk0 V c 2 t : Vec Ideal S1x128 .f32) (ix2 (0 : Fin 1) j)) (iblk0 V c 3 t : Vec Ideal S128x128 .f32)
        (fun j => (iblk0 V c 4 t : Vec Ideal S1x128 .f32) (ix2 (0 : Fin 1) j)) (iblk0 V c 5 t : Vec Ideal S128x128 .f32)
        (fun j => (iblk0 V c 6 t : Vec Ideal S1x128 .f32) (ix2 (0 : Fin 1) j)) j
      = atNat (actsOf V c) j (4000 * t.val + r.val) := by
  have hlt : 4000 * t.val + r.val < 400000 := by have := t.isLt; have := N100; have := r.isLt; omega
  unfold atNat
  rw [dif_pos hlt]
  exact hidden_congr (funext fun k => iblk_0 V c t r k) (iblk_1 V c t) (funext fun j => congrFun (iblk_2 V c t) _)
    (iblk_3 V c t) (funext fun j => congrFun (iblk_4 V c t) _) (iblk_5 V c t) (funext fun j => congrFun (iblk_6 V c t) _) j

/-- ONE POINT'S STEP of the sum accumulator: plus the block's column sum of the activations. -/
theorem step_sum (c : Dev nD) (t : Fin cfg0.N) (acc : FVec Ideal S1x128 .f32) (u : Fin 1) (j : Fin 128) :
    k0_pay2 (k0_pay6 (iblk0 V c 6 t)) (k0_pay7 (iblk0 V c 0 t) (iblk0 V c 1 t) (iblk0 V c 2 t) (iblk0 V c 3 t) (iblk0 V c 4 t))
        (k0_pay8 (iblk0 V c 5 t)) acc (ix2 u j)
      = acc (ix2 u j) + blockSum (atNat (actsOf V c) j) t.val := by
  refine (pay2_apply (iblk0 V c 0 t) (iblk0 V c 1 t) (iblk0 V c 2 t) (iblk0 V c 3 t) (iblk0 V c 4 t) (iblk0 V c 5 t)
    (iblk0 V c 6 t) acc u j).trans ?_
  refine congrArg (fun s => acc (ix2 u j) + s) ?_
  show _ = ∑ r : Fin 4000, atNat (actsOf V c) j (4000 * t.val + r.val)
  exact Finset.sum_congr rfl fun r _ => hidden_blk V c t r j

/-- ONE POINT'S STEP of the square accumulator: plus the block's column sum of the squared activations. -/
theorem step_sumsq (c : Dev nD) (t : Fin cfg0.N) (acc : FVec Ideal S1x128 .f32) (u : Fin 1) (j : Fin 128) :
    k0_pay3 (k0_pay6 (iblk0 V c 6 t)) (k0_pay7 (iblk0 V c 0 t) (iblk0 V c 1 t) (iblk0 V c 2 t) (iblk0 V c 3 t) (iblk0 V c 4 t))
        (k0_pay8 (iblk0 V c 5 t)) acc (ix2 u j)
      = acc (ix2 u j) + blockSum (fun n => atNat (actsOf V c) j n * atNat (actsOf V c) j n) t.val := by
  refine (pay3_apply (iblk0 V c 0 t) (iblk0 V c 1 t) (iblk0 V c 2 t) (iblk0 V c 3 t) (iblk0 V c 4 t) (iblk0 V c 5 t)
    (iblk0 V c 6 t) acc u j).trans ?_
  refine congrArg (fun s => acc (ix2 u j) + s) ?_
  show _ = ∑ r : Fin 4000, atNat (actsOf V c) j (4000 * t.val + r.val) * atNat (actsOf V c) j (4000 * t.val + r.val)
  exact Finset.sum_congr rfl fun r _ => by rw [hidden_blk V c t r j]

/-- WHAT THE ACCUMULATORS HOLD AFTER POINT `n`: the running sums over blocks `0 … n`, started from the zero word —
    by induction on the point. -/
theorem outsAt_eq (c : Dev nD) : ∀ (n : ℕ) (hn : n < cfg0.N) (u : Fin 1) (j : Fin 128),
    (outsAt0 V c n hn).1 (ix2 u j) = runSum (blockSum (atNat (actsOf V c) j)) n
      ∧ (outsAt0 V c n hn).2 (ix2 u j) = runSum (blockSum fun m => atNat (actsOf V c) j m * atNat (actsOf V c) j m) n
  | 0, hn, u, j => by
    have e : outsAt0 V c 0 hn = _ := outsAt0_A V c ⟨0, hn⟩ (Nat.zero_mod _)
    rw [e]
    dsimp only
    rw [out_A_7, out_A_8]
    exact ⟨(step_sum V c ⟨0, hn⟩ k0_pay4 u j).trans rfl, (step_sumsq V c ⟨0, hn⟩ k0_pay5 u j).trans rfl⟩
  | n + 1, hn, u, j => by
    have hN : cfg0.N = 100 := N100
    have hB : ¬(⟨n + 1, hn⟩ : Fin cfg0.N).val % 100 = 0 := by dsimp only; omega
    have e : outsAt0 V c (n + 1) hn = _ := outsAt0_B V c ⟨n + 1, hn⟩ hB
    rw [e]
    dsimp only
    rw [out_B_7, out_B_8]
    have ih := outsAt_eq c n (Nat.lt_of_succ_lt hn) u j
    refine ⟨(step_sum V c ⟨n + 1, hn⟩ _ u j).trans ?_, (step_sumsq V c ⟨n + 1, hn⟩ _ u j).trans ?_⟩
    · show (outsAt0 V c n _).1 (ix2 u j) + _ = runSum _ n + _
      rw [ih.1]
    · show (outsAt0 V c n _).2 (ix2 u j) + _ = runSum _ n + _
      rw [ih.2]

end Fold

section Final

open Idealize.ShloMosaic.ValueIdx Cert.Spec

variable (V : (c : Dev nD) → (b : Ref sig .tc) → Buf (Elt Ideal) ((c : Thread nD τ).loc b))

/-- The last point of the grid, the one after which the accumulators are written back. -/
def tLast : Fin cfg0.N := ⟨99, by have := N100; omega⟩

/-- The row of running sums of the activations, over all 100 blocks, one per feature. -/
def sumRow (c : Dev nD) : S1x128.Idx → EReal := fun i => kerSum (actsOf V c) (i 1)

/-- After the last point accumulator 7's staging buffer holds that row. -/
theorem last_7 (c : Dev nD) : ((outsAt0 V c tLast.val tLast.isLt).1 : Vec Ideal S1x128 .f32) = sumRow V c :=
  funext fun i => by
    obtain ⟨u, j, rfl⟩ : ∃ (u : Fin 1) (j : Fin 128), i = ix2 u j := ⟨i 0, i 1, eq_ix2 i⟩
    exact (outsAt_eq V c 99 tLast.isLt u j).1

/-- The one write-back of accumulator 7, at the last point, writes that row: its block is the whole array. -/
theorem flushed_7 (c : Dev nD) (t : Fin cfg0.N) (hf : (cfg0.win 7).flush t = true) :
    (dat0 V c).flushed 7 t = ((cfg0.win 7).blk t).view.read (Elt Ideal) (sumRow V c) := by
  have hN : cfg0.N = 100 := N100
  have h99 : t.val = 99 := by have := (flush0_7 t).mp hf; have := t.isLt; omega
  obtain rfl : t = tLast := Fin.ext h99
  show (cfg0.win 7).cut (grid0.coords tLast) ((dat0 V c).after 7 tLast) = _
  rw [after0_7]
  have hz' : (fun a => win0_7.index tLast a * main_v21_0.ty.shape.size a) = fun _ => 0 := funext fun a => by fin_cases a <;> decide +kernel
  exact (last_7 V c).trans
    (Memref.read_access_unit_zero (Elt Ideal) main_v21_0 hz' (fun a => by rw [congrFun hz' a]; simp) (sumRow V c)).symm

/-- So the array of accumulator 7 ends holding that row: the last point's block covers it. -/
theorem final_7 (c : Dev nD) : (dat0 V c).arrAt 7 cfg0.N = sumRow V c :=
  (dat0 V c).arrAt_eq_of_cover 7 (sumRow V c) (flushed_7 V c) fun i =>
    ⟨tLast, (flush0_7 tLast).mpr rfl, by
      show i ∈ ((View.whole main_v21_0).slice (win0_7.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 128 from by decide +kernel]; omega⟩

/-- THE SUM ACCUMULATOR AFTER THE REGION, at (0, j): the running sum over the 100 blocks of the activations of feature j. -/
theorem sum_final (c : Dev nD) (u : Fin 1) (j : Fin 128) :
    (dat0 V c).arrAt 7 cfg0.N (ValueIdx.ix2 u j) = Cert.Spec.kerSum (actsOf V c) j :=
  congrFun (final_7 V c) (ix2 u j)

/-- The row of running sums of the squared activations, over all 100 blocks, one per feature. -/
def sumsqRow (c : Dev nD) : S1x128.Idx → EReal := fun i => kerSumSq (actsOf V c) (i 1)

/-- After the last point accumulator 8's staging buffer holds that row. -/
theorem last_8 (c : Dev nD) : ((outsAt0 V c tLast.val tLast.isLt).2 : Vec Ideal S1x128 .f32) = sumsqRow V c :=
  funext fun i => by
    obtain ⟨u, j, rfl⟩ : ∃ (u : Fin 1) (j : Fin 128), i = ix2 u j := ⟨i 0, i 1, eq_ix2 i⟩
    exact (outsAt_eq V c 99 tLast.isLt u j).2

/-- The one write-back of accumulator 8, at the last point, writes that row: its block is the whole array. -/
theorem flushed_8 (c : Dev nD) (t : Fin cfg0.N) (hf : (cfg0.win 8).flush t = true) :
    (dat0 V c).flushed 8 t = ((cfg0.win 8).blk t).view.read (Elt Ideal) (sumsqRow V c) := by
  have hN : cfg0.N = 100 := N100
  have h99 : t.val = 99 := by have := (flush0_8 t).mp hf; have := t.isLt; omega
  obtain rfl : t = tLast := Fin.ext h99
  show (cfg0.win 8).cut (grid0.coords tLast) ((dat0 V c).after 8 tLast) = _
  rw [after0_8]
  have hz' : (fun a => win0_8.index tLast a * main_v21_1.ty.shape.size a) = fun _ => 0 := funext fun a => by fin_cases a <;> decide +kernel
  exact (last_8 V c).trans
    (Memref.read_access_unit_zero (Elt Ideal) main_v21_1 hz' (fun a => by rw [congrFun hz' a]; simp) (sumsqRow V c)).symm

/-- So the array of accumulator 8 ends holding that row: the last point's block covers it. -/
theorem final_8 (c : Dev nD) : (dat0 V c).arrAt 8 cfg0.N = sumsqRow V c :=
  (dat0 V c).arrAt_eq_of_cover 8 (sumsqRow V c) (flushed_8 V c) fun i =>
    ⟨tLast, (flush0_8 tLast).mpr rfl, by
      show i ∈ ((View.whole main_v21_1).slice (win0_8.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 128 from by decide +kernel]; omega⟩

/-- THE SQUARE ACCUMULATOR AFTER THE REGION, at (0, j): the running sum over the 100 blocks of the squared activations of feature j. -/
theorem sumsq_final (c : Dev nD) (u : Fin 1) (j : Fin 128) :
    (dat0 V c).arrAt 8 cfg0.N (ValueIdx.ix2 u j) = Cert.Spec.kerSumSq (actsOf V c) j :=
  congrFun (final_8 V c) (ix2 u j)

end Final

end Cert.KernelIdeal.StatsRegion

end
-- ==== Proof.Carried.lean ====
/-
  Buffers the kernel program carries unchanged from the first region's entry to the second's.

  Between the two regions the program runs the first region itself and a stretch of host operations that form the
  batch statistics.  The first region only READS its seven input arrays (the joined input matrix, the three weight
  matrices and the three bias rows), so at its exit each holds what it held at entry; the scale and shift rows are
  not among its arrays at all; and the host stretch writes only its own twelve results.  Hence each of these nine
  buffers reaches the second region with its contents at the first region's entry.

  The first region's two outputs (the running column sums of h and of h²) leave it holding what its write-backs
  fold to; that is recorded here too, for the host stretch that reads them.
-/
import proofs.«163272_j69861938037523_1_alg».proof.Proof.Gen.KernelIdeal.Frame

set_option maxRecDepth 16384

noncomputable section

namespace Cert.KernelIdeal.Carried

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ### The first region's input arrays: read, never written; and the host stretch writes none of them -/

/-- The joined input matrix (the first region's input window 0). -/
theorem V3_main_v15 (c : Dev nD) : V3 m ρ c main_v15 = V1 m ρ c main_v15 :=
  calc V3 m ρ c main_v15
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v15 := (W2_arr m ρ c 0).trans (((dat0 (V1 m ρ) c).arrAt_in 0 rfl _).trans (A_eq0 (V1 m ρ) c 0))

/-- The first layer's weights (the first region's input window 1). -/
theorem V3_main_arg4 (c : Dev nD) : V3 m ρ c main_arg4 = V1 m ρ c main_arg4 :=
  calc V3 m ρ c main_arg4
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_arg4 := (W2_arr m ρ c 1).trans (((dat0 (V1 m ρ) c).arrAt_in 1 rfl _).trans (A_eq0 (V1 m ρ) c 1))

/-- The first layer's bias row (the first region's input window 2). -/
theorem V3_main_v16 (c : Dev nD) : V3 m ρ c main_v16 = V1 m ρ c main_v16 :=
  calc V3 m ρ c main_v16
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v16 := (W2_arr m ρ c 2).trans (((dat0 (V1 m ρ) c).arrAt_in 2 rfl _).trans (A_eq0 (V1 m ρ) c 2))

/-- The second layer's weights (the first region's input window 3). -/
theorem V3_main_arg6 (c : Dev nD) : V3 m ρ c main_arg6 = V1 m ρ c main_arg6 :=
  calc V3 m ρ c main_arg6
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_arg6 := (W2_arr m ρ c 3).trans (((dat0 (V1 m ρ) c).arrAt_in 3 rfl _).trans (A_eq0 (V1 m ρ) c 3))

/-- The second layer's bias row (the first region's input window 4). -/
theorem V3_main_v17 (c : Dev nD) : V3 m ρ c main_v17 = V1 m ρ c main_v17 :=
  calc V3 m ρ c main_v17
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v17 := (W2_arr m ρ c 4).trans (((dat0 (V1 m ρ) c).arrAt_in 4 rfl _).trans (A_eq0 (V1 m ρ) c 4))

/-- The third layer's weights (the first region's input window 5). -/
theorem V3_main_arg8 (c : Dev nD) : V3 m ρ c main_arg8 = V1 m ρ c main_arg8 :=
  calc V3 m ρ c main_arg8
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_arg8 := (W2_arr m ρ c 5).trans (((dat0 (V1 m ρ) c).arrAt_in 5 rfl _).trans (A_eq0 (V1 m ρ) c 5))

/-- The third layer's bias row (the first region's input window 6). -/
theorem V3_main_v18 (c : Dev nD) : V3 m ρ c main_v18 = V1 m ρ c main_v18 :=
  calc V3 m ρ c main_v18
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v18 := (W2_arr m ρ c 6).trans (((dat0 (V1 m ρ) c).arrAt_in 6 rfl _).trans (A_eq0 (V1 m ρ) c 6))

/-! ### The scale and shift rows: not the first region's arrays -/

/-- The scale row. -/
theorem V3_main_v19 (c : Dev nD) : V3 m ρ c main_v19 = V1 m ρ c main_v19 :=
  calc V3 m ρ c main_v19
    _ = W2 m ρ c (Proc.devRef .tc main_v19) := StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v19 := W2_of_ne m ρ c main_v19 (by decide)

/-- The shift row. -/
theorem V3_main_v20 (c : Dev nD) : V3 m ρ c main_v20 = V1 m ρ c main_v20 :=
  calc V3 m ρ c main_v20
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = V1 m ρ c main_v20 := W2_of_ne m ρ c main_v20 (by decide)

/-! ### The two accumulators' hand-over: what the first region's write-backs leave -/

/-- The running column sum of h (output window 7) at the first region's exit. -/
theorem W2_sum (c : Dev nD) : W2 m ρ c (Proc.devRef .tc main_v21_0) = (dat0 (V1 m ρ) c).arrAt 7 cfg0.N :=
  W2_arr m ρ c 7

/-- The running column sum of h² (output window 8) at the first region's exit. -/
theorem W2_sumsq (c : Dev nD) : W2 m ρ c (Proc.devRef .tc main_v21_1) = (dat0 (V1 m ρ) c).arrAt 8 cfg0.N :=
  W2_arr m ρ c 8

end Cert.KernelIdeal.Carried

end
-- ==== Proof.HostStretches.lean ====
/-
  The idealized kernel's two stretches of host operations, read.

  Before the first pass the host builds the edge input matrix (a concatenation of the edge features with the sum of two
  row gathers of the node features) and re-lays each of the five parameter vectors [128] as a row [1,128].  Between the
  two passes it turns the accumulated sums S (of the activations) and Q (of their squares) into
  mean = S / N,  inv = (Q / N − mean·mean + ε)^(-1/2),  N the word 400000.0.  Read at (0, j) these are the scalar
  formulas of `Spec.kerMean` and `Spec.kerVar`.
-/
import proofs.«163272_j69861938037523_1_alg».proof.Proof.Gen.KernelIdeal.Frame
import proofs.«163272_j69861938037523_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hosts

open Cert.KernelIdeal Cert.KernelIdeal.Gen
open Idealize.ShloMosaic Idealize.ShloMosaic.TcCoe Idealize.ShloMosaic.ValueIdx Idealize.SL.Sem Idealize.ShloMosaic.StableHlo
open Cert.Spec

variable (m : (ℓ : Loc nD τ sig) → Buf (Elt Ideal) ℓ) (ρ : Dev nD → PrngReg)

/-! ### Before the first pass -/

/-- The first weight matrix is the argument itself. -/
theorem V1_arg4 (c : Dev nD) : V1 m ρ c main_arg4 = m ((c : Thread nD τ).loc main_arg4) := by
  show StableHlo.after hostOps0 (W0 m ρ c) (Proc.devRef .tc main_arg4) = _
  after_results <;> rfl

theorem V1_arg6 (c : Dev nD) : V1 m ρ c main_arg6 = m ((c : Thread nD τ).loc main_arg6) := by
  show StableHlo.after hostOps0 (W0 m ρ c) (Proc.devRef .tc main_arg6) = _
  after_results <;> rfl

theorem V1_arg8 (c : Dev nD) : V1 m ρ c main_arg8 = m ((c : Thread nD τ).loc main_arg8) := by
  show StableHlo.after hostOps0 (W0 m ρ c) (Proc.devRef .tc main_arg8) = _
  after_results <;> rfl

/-- Each parameter row is its vector re-laid: at (0, j) the vector at j. -/
theorem V1_v16 (c : Dev nD) (u : Fin 1) (j : Fin 128) :
    V1 m ρ c main_v16 (ix2 u j) = m ((c : Thread nD τ).loc main_arg5) (ix1 j) := by
  have e : V1 m ρ c main_v16 = shapeCast S1x128 (m ((c : Thread nD τ).loc main_arg5)) shapeCasts_S128_S1x128 := by
    show StableHlo.after hostOps0 (W0 m ρ c) (Proc.devRef .tc main_v16) = _
    after_results <;> rfl
  rw [e]; exact shapeCast_a_1a_apply _ _ u j

theorem V1_v17 (c : Dev nD) (u : Fin 1) (j : Fin 128) :
    V1 m ρ c main_v17 (ix2 u j) = m ((c : Thread nD τ).loc main_arg7) (ix1 j) := by
  have e : V1 m ρ c main_v17 = shapeCast S1x128 (m ((c : Thread nD τ).loc main_arg7)) shapeCasts_S128_S1x128 := by
    show StableHlo.after hostOps0 (W0 m ρ c) (Proc.devRef .tc main_v17) = _
    after_results <;> rfl
  rw [e]; exact shapeCast_a_1a_apply _ _ u j

theorem V1_v18 (c : Dev nD) (u : Fin 1) (j : Fin 128) :
    V1 m ρ c main_v18 (ix2 u j) = m ((c : Thread nD τ).loc main_arg9) (ix1 j) := by
  have e : V1 m ρ c main_v18 = shapeCast S1x128 (m ((c : Thread nD τ).loc main_arg9)) shapeCasts_S128_S1x128 := by
    show StableHlo.after hostOps0 (W0 m ρ c) (Proc.devRef .tc main_v18) = _
    after_results <;> rfl
  rw [e]; exact shapeCast_a_1a_apply _ _ u j

theorem V1_v19 (c : Dev nD) (u : Fin 1) (j : Fin 128) :
    V1 m ρ c main_v19 (ix2 u j) = m ((c : Thread nD τ).loc main_arg10) (ix1 j) := by
  have e : V1 m ρ c main_v19 = shapeCast S1x128 (m ((c : Thread nD τ).loc main_arg10)) shapeCasts_S128_S1x128 := by
    show StableHlo.after hostOps0 (W0 m ρ c) (Proc.devRef .tc main_v19) = _
    after_results <;> rfl
  rw [e]; exact shapeCast_a_1a_apply _ _ u j

theorem V1_v20 (c : Dev nD) (u : Fin 1) (j : Fin 128) :
    V1 m ρ c main_v20 (ix2 u j) = m ((c : Thread nD τ).loc main_arg11) (ix1 j) := by
  have e : V1 m ρ c main_v20 = shapeCast S1x128 (m ((c : Thread nD τ).loc main_arg11)) shapeCasts_S128_S1x128 := by
    show StableHlo.after hostOps0 (W0 m ρ c) (Proc.devRef .tc main_v20) = _
    after_results <;> rfl
  rw [e]; exact shapeCast_a_1a_apply _ _ u j

/-! ### Between the passes -/

/-- The mean row at (0, j): the accumulated sum at (0, j) divided by the batch size. -/
theorem V3_mean (c : Dev nD) (u : Fin 1) (j : Fin 128) :
    V3 m ρ c main_v23 (ix2 u j) = Ideal.div (W2 m ρ c (Proc.devRef .tc main_v21_0) (ix2 u j)) countW := by
  have e : V3 m ρ c main_v23 = Host.divf (F := Ideal) (W2 m ρ c (Proc.devRef .tc main_v21_0))
      (broadcastInDim S1x128 ![] bcast_S_S1x128 (constant (F := Ideal) S_ .f32 0x48C35000#32)) := by
    show StableHlo.after hostOps1 (W2 m ρ c) (Proc.devRef .tc main_v23) = _
    after_results <;> rfl
  rw [e]; rfl

/-- The inverse deviation row at (0, j). -/
theorem V3_inv (c : Dev nD) (u : Fin 1) (j : Fin 128) :
    V3 m ρ c main_v30 (ix2 u j)
      = Ideal.rsqrt (Ideal.div (W2 m ρ c (Proc.devRef .tc main_v21_1) (ix2 u j)) countW
          - Ideal.div (W2 m ρ c (Proc.devRef .tc main_v21_0) (ix2 u j)) countW
            * Ideal.div (W2 m ρ c (Proc.devRef .tc main_v21_0) (ix2 u j)) countW + epsW) := by
  have e : V3 m ρ c main_v30 = Host.rsqrt (F := Ideal) (addf (subf
        (Host.divf (F := Ideal) (W2 m ρ c (Proc.devRef .tc main_v21_1))
          (broadcastInDim S1x128 ![] bcast_S_S1x128 (constant (F := Ideal) S_ .f32 0x48C35000#32)))
        (mulf (Host.divf (F := Ideal) (W2 m ρ c (Proc.devRef .tc main_v21_0))
            (broadcastInDim S1x128 ![] bcast_S_S1x128 (constant (F := Ideal) S_ .f32 0x48C35000#32)))
          (Host.divf (F := Ideal) (W2 m ρ c (Proc.devRef .tc main_v21_0))
            (broadcastInDim S1x128 ![] bcast_S_S1x128 (constant (F := Ideal) S_ .f32 0x48C35000#32)))))
        (broadcastInDim S1x128 ![] bcast_S_S1x128 (constant (F := Ideal) S_ .f32 0x3727C5AC#32))) := by
    show StableHlo.after hostOps1 (W2 m ρ c) (Proc.devRef .tc main_v30) = _
    after_results <;> rfl
  rw [e]; rfl

end Cert.KernelIdeal.Hosts

end
-- ==== Proof.KernelValue.lean ====
/-
  The idealized kernel's result, index by index, from the launch memory.

  The result buffer ends at what the normalising pass leaves (`NormRegion.final`): the normalisation of the three
  layers on each input row with the rows the pass finds.  Those rows are: the input matrix, weights and re-laid biases,
  scale and shift as the host left them before the first pass (carried unchanged through it and through the host
  operations in between), and the mean and inverse deviation the host computed from the two sums the statistics pass
  accumulated (`StatsRegion.sum_final`, `sumsq_final`).  Put together this is `Spec.kerOut` of the activations.
-/
import proofs.«163272_j69861938037523_1_alg».proof.Proof.NormRegion
import proofs.«163272_j69861938037523_1_alg».proof.Proof.StatsRegion
import proofs.«163272_j69861938037523_1_alg».proof.Proof.Carried
import proofs.«163272_j69861938037523_1_alg».proof.Proof.HostStretches

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-- The activations of every edge, from the launch memory: the input matrix the host builds, the three weight
    matrices and the three bias vectors. -/
abbrev actsM (c : Dev nD) : Fin 400000 → Fin 128 → EReal :=
  acts (V1 m ρ c main_v15) (m ((c : Thread nD τ).loc main_arg4)) (fun j => m ((c : Thread nD τ).loc main_arg5) (ix1 j))
    (m ((c : Thread nD τ).loc main_arg6)) (fun j => m ((c : Thread nD τ).loc main_arg7) (ix1 j))
    (m ((c : Thread nD τ).loc main_arg8)) (fun j => m ((c : Thread nD τ).loc main_arg9) (ix1 j))

/-! The parameter rows the host re-laid, read back as the vectors. -/

theorem row16 (c : Dev nD) : (fun j : Fin 128 => V1 m ρ c main_v16 (ix2 (0 : Fin 1) j))
    = fun j => m ((c : Thread nD τ).loc main_arg5) (ix1 j) := funext fun j => Cert.KernelIdeal.Hosts.V1_v16 m ρ c 0 j
theorem row17 (c : Dev nD) : (fun j : Fin 128 => V1 m ρ c main_v17 (ix2 (0 : Fin 1) j))
    = fun j => m ((c : Thread nD τ).loc main_arg7) (ix1 j) := funext fun j => Cert.KernelIdeal.Hosts.V1_v17 m ρ c 0 j
theorem row18 (c : Dev nD) : (fun j : Fin 128 => V1 m ρ c main_v18 (ix2 (0 : Fin 1) j))
    = fun j => m ((c : Thread nD τ).loc main_arg9) (ix1 j) := funext fun j => Cert.KernelIdeal.Hosts.V1_v18 m ρ c 0 j
theorem row19 (c : Dev nD) : (fun j : Fin 128 => V1 m ρ c main_v19 (ix2 (0 : Fin 1) j))
    = fun j => m ((c : Thread nD τ).loc main_arg10) (ix1 j) := funext fun j => Cert.KernelIdeal.Hosts.V1_v19 m ρ c 0 j
theorem row20 (c : Dev nD) : (fun j : Fin 128 => V1 m ρ c main_v20 (ix2 (0 : Fin 1) j))
    = fun j => m ((c : Thread nD τ).loc main_arg11) (ix1 j) := funext fun j => Cert.KernelIdeal.Hosts.V1_v20 m ρ c 0 j

/-- The statistics pass's activations are those. -/
theorem actsOf_V1 (c : Dev nD) : Cert.KernelIdeal.StatsRegion.actsOf (V1 m ρ) c = actsM m ρ c := by
  show acts (V1 m ρ c main_v15) (V1 m ρ c main_arg4) (fun j => V1 m ρ c main_v16 (ix2 (0 : Fin 1) j))
      (V1 m ρ c main_arg6) (fun j => V1 m ρ c main_v17 (ix2 (0 : Fin 1) j)) (V1 m ρ c main_arg8)
      (fun j => V1 m ρ c main_v18 (ix2 (0 : Fin 1) j)) = _
  rw [Cert.KernelIdeal.Hosts.V1_arg4, Cert.KernelIdeal.Hosts.V1_arg6, Cert.KernelIdeal.Hosts.V1_arg8, row16, row17, row18]

/-- The mean row the normalising pass finds, at (0, j). -/
theorem mean_apply (c : Dev nD) (j : Fin 128) :
    V3 m ρ c main_v23 (ix2 (0 : Fin 1) j) = kerMean (actsM m ρ c) j := by
  rw [Cert.KernelIdeal.Hosts.V3_mean, Cert.KernelIdeal.Carried.W2_sum, Cert.KernelIdeal.StatsRegion.sum_final, actsOf_V1]
  rfl

/-- The inverse deviation row the normalising pass finds, at (0, j). -/
theorem inv_apply (c : Dev nD) (j : Fin 128) :
    V3 m ρ c main_v30 (ix2 (0 : Fin 1) j) = Ideal.rsqrt (kerVar (actsM m ρ c) j + epsW) := by
  rw [Cert.KernelIdeal.Hosts.V3_inv, Cert.KernelIdeal.Carried.W2_sum, Cert.KernelIdeal.Carried.W2_sumsq,
    Cert.KernelIdeal.StatsRegion.sum_final, Cert.KernelIdeal.StatsRegion.sumsq_final, actsOf_V1]
  rfl

/-- THE RESULT at (e, j). -/
theorem result_apply (c : Dev nD) (e : Fin 400000) (j : Fin 128) :
    W4 m ρ c (Proc.devRef .tc main_v31) (ix2 e j)
      = kerOut (actsM m ρ c) (fun j => m ((c : Thread nD τ).loc main_arg10) (ix1 j))
          (fun j => m ((c : Thread nD τ).loc main_arg11) (ix1 j)) e j := by
  have h4 : W4 m ρ c (Proc.devRef .tc main_v31) = (dat1 (V3 m ρ) c).arrAt 11 cfg1.N := W4_arr m ρ c 11
  rw [h4, Cert.KernelIdeal.NormRegion.final_apply, mean_apply, inv_apply]
  rw [Cert.KernelIdeal.Carried.V3_main_v15, Cert.KernelIdeal.Carried.V3_main_arg4, Cert.KernelIdeal.Carried.V3_main_v16,
    Cert.KernelIdeal.Carried.V3_main_arg6, Cert.KernelIdeal.Carried.V3_main_v17, Cert.KernelIdeal.Carried.V3_main_arg8,
    Cert.KernelIdeal.Carried.V3_main_v18, Cert.KernelIdeal.Carried.V3_main_v19, Cert.KernelIdeal.Carried.V3_main_v20]
  rw [Cert.KernelIdeal.Hosts.V1_arg4, Cert.KernelIdeal.Hosts.V1_arg6, Cert.KernelIdeal.Hosts.V1_arg8, row16, row17, row18,
    row19, row20]
  rfl

end Cert.KernelIdeal.KernelValue

end
-- ==== Proof.FiniteInputs.lean ====
/-
  THE PRECONDITION GIVES REAL ENTRIES.

  The printed precondition is a conjunction, one conjunct per floating-point argument `x`: the reduction by `and`, over
  every index, of the comparison `|x i| < +∞`. At the ideal instance an entry is an extended real, `|x| = max x (-x)`,
  the word `0x7F800000` denotes `⊤`, and the comparison is the order's. An extended real `x` with `max x (-x) < ⊤` is
  neither `⊤` (then `max x (-x) = ⊤`) nor `⊥` (then `-x = ⊤`), so it is a real number. A conjunction that is `1` has
  every conjunct `1`, and a reduction by `and` over all axes that is `1` met `1` at every index.
-/
import proofs.«163272_j69861938037523_1_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx

/-- The scalar shape has one index. -/
instance : Subsingleton Cert.Pre_finite_inputs.S_.Idx := ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- An extended real whose absolute value `max x (-x)` is below `+∞` is a real number. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    unfold Ideal.cmp at h
    by_contra hc
    simp [hc] at h
  induction x using EReal.rec with
  | bot => exact absurd hlt (by simp)
  | coe r => exact ⟨r, rfl⟩
  | top => exact absurd hlt (by simp)

/-- ONE CONJUNCT READ BACK: if the reduction by `and`, over all axes, of `|x i| < +∞` is `1`, every entry of `x` is a
    real number. General in the shape and in the reduced axes. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant Cert.Pre_finite_inputs.S_ .f32 0x7F800000#32)))
        (constantI Cert.Pre_finite_inputs.S_ 1 1#1) hr hu j = 1#1) :
    ∀ i, ∃ r : ℝ, x i = (r : EReal) := fun i =>
  real_of_abs_lt (x i) (Host.reduce_andi_all _ _ hr hu j e i)

/-- A conjunction of one-bit words at the scalar shape's index is `1` exactly when both conjuncts are. -/
theorem andi_ix (x y : IVec Cert.Pre_finite_inputs.S_ 1) (j : Cert.Pre_finite_inputs.S_.Idx) :
    andi x y j = 1#1 ↔ x j = 1#1 ∧ y j = 1#1 := IntOp.andi_eq_one

open Cert.Pre_finite_inputs in
/-- THE PRECONDITION DECODED: under it every entry of the node table, of the edge features, of the three weight
    matrices and of the three bias rows is a real number. -/
theorem inputs_real [Cert.Pre_finite_inputs.Facts]
    (a0 : FVec Ideal S50000x128 .f32) (a1 : FVec Ideal S400000x64 .f32) (a2 : IVec S400000 32) (a3 : IVec S400000 32)
    (a4 : FVec Ideal S192x128 .f32) (a5 : FVec Ideal S128 .f32) (a6 : FVec Ideal S128x128 .f32)
    (a7 : FVec Ideal S128 .f32) (a8 : FVec Ideal S128x128 .f32) (a9 : FVec Ideal S128 .f32)
    (a10 : FVec Ideal S128 .f32) (a11 : FVec Ideal S128 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) := by
  have e := congrFun h ix0
  unfold Cert.Pre_finite_inputs.fn Cert.Pre_finite_inputs.fn_part1 Cert.Pre_finite_inputs.fn_part2 at e
  dsimp only at e
  simp only [andi_ix] at e
  obtain ⟨⟨⟨⟨⟨⟨⟨⟨⟨e0, e1⟩, e4⟩, e5⟩, e6⟩, e7⟩, e8⟩, e9⟩, -⟩, -⟩ := e
  exact ⟨all_real a0 _ _ _ _ e0, all_real a1 _ _ _ _ e1, all_real a4 _ _ _ _ e4, all_real a5 _ _ _ _ e5,
    all_real a6 _ _ _ _ e6, all_real a7 _ _ _ _ e7, all_real a8 _ _ _ _ e8, all_real a9 _ _ _ _ e9⟩

end Cert.FiniteInputs

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.InputRows.lean ====
/-
  THE GATHERED AND CONCATENATED INPUT MATRIX IS REAL.

  The first layer's input is the concatenation, along the column axis, of the edge features `x1 : [400000, 64]` and of
  the sum of two gathers of whole rows of the node table `x0 : [50000, 128]`. An entry of a row gather is an entry of
  the table (at the row the index column names, clamped into the table), so it is real when the table's entries are; a
  sum of two reals is a real; and an entry of the concatenation is an entry of one of its two pieces, chosen by its
  column. So every entry of the input matrix is a real number when the entries of `x0` and `x1` are. What the index
  columns hold never matters.
-/
import proofs.«163272_j69861938037523_1_alg».proof.Proof.RefReadPatched
import proofs.«163272_j69861938037523_1_alg».proof.Proof.LibRowGather
import Idealize.ShloMosaic.Lib.ValueIdx
import Idealize.ShloMosaic.Lib.Pipeline.Value

noncomputable section

namespace Cert.InputRows

open Idealize.ShloMosaic Idealize.ShloMosaic.ValueIdx

/-- An entry of a gather of whole rows of a real matrix is real: it is an entry of the matrix. -/
theorem rowGather_real {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → EReal) (hx : ∀ i, ∃ r : ℝ, x i = (r : EReal))
    (idx : IVec ⟨2, ![R, 1]⟩ w) (j : (⟨2, ![R, C]⟩ : Shape).Idx) :
    ∃ r : ℝ, Host.gather d x idx j = (r : EReal) := by
  obtain ⟨a, b, rfl⟩ : ∃ (a : Fin R) (b : Fin C), j = ix2 a b := ⟨j 0, j 1, eq_ix2 j⟩
  rw [Cert.Lib.rowGather_apply' hN d h1 h2 h3 h4 h5 h6 h7 x idx a b]
  exact hx _

/-- An entry of the concatenation, along the column axis, of two real matrices with the same number of rows is real:
    a column below the first piece's width reads the first piece, any other the second at that column less the width. -/
theorem concat_real {R A B T : Nat} (hT : T = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, T]⟩ (1 : Fin 2))
    (h₁ : ∀ i, ∃ r : ℝ, x₁ i = (r : EReal)) (h₂ : ∀ i, ∃ r : ℝ, x₂ i = (r : EReal))
    (j : (⟨2, ![R, T]⟩ : Shape).Idx) :
    ∃ r : ℝ, concatenate (⟨2, ![R, T]⟩ : Shape) (1 : Fin 2) [⟨⟨2, ![R, A]⟩, x₁⟩, ⟨⟨2, ![R, B]⟩, x₂⟩] h j = (r : EReal) := by
  obtain ⟨a, c, rfl⟩ : ∃ (a : Fin R) (c : Fin T), j = ix2 a c := ⟨j 0, j 1, eq_ix2 j⟩
  have hc : c.val < T := c.isLt
  by_cases hlt : c.val < A
  · rw [concatenate_pair_apply_left (1 : Fin 2) x₁ x₂ h (ix2 a c) rfl (ix2 a (⟨c.val, hlt⟩ : Fin A))
      (fun b => by match b with | ⟨0, _⟩ => rfl | ⟨1, _⟩ => rfl)]
    exact h₁ _
  · rw [concatenate_pair_apply_right (1 : Fin 2) x₁ x₂ h (ix2 a c) rfl rfl (ix2 a (⟨c.val - A, by omega⟩ : Fin B))
      (fun b hb => by
        match b with
        | ⟨0, _⟩ => rfl
        | ⟨1, _⟩ => exact absurd rfl hb)
      (by show c.val - A + A = c.val; omega)]
    exact h₂ _

open Cert.ReferenceIdeal Cert.ReferenceIdeal.Gen Cert.ReferenceIdeal.ReadP Idealize.ShloMosaic.TcCoe Idealize.SL.Sem Idealize.ShloMosaic.StableHlo in
/-- THE INPUT MATRIX IS REAL: every entry of the concatenation of the edge features with the sum of the two gathered
    node rows is a real number, when the entries of the node table and of the edge features are. -/
theorem input_rows_real (x0 : (⟨S50000x128, .f32⟩ : BufTy).Contents (Elt Ideal))
    (x1 : (⟨S400000x64, .f32⟩ : BufTy).Contents (Elt Ideal)) (x2 x3 : (⟨S400000, .i32⟩ : BufTy).Contents (Elt Ideal))
    (h0 : ∀ i, ∃ r : ℝ, x0 i = (r : EReal)) (h1 : ∀ i, ∃ r : ℝ, x1 i = (r : EReal)) :
    ∀ i, ∃ r : ℝ, Cert.ReferenceIdeal.ReadP.val_main_v15 (F := Ideal) x0 x1 x2 x3 i = (r : EReal) := by
  intro i
  unfold val_main_v15 val_main_v14 val_main_v6 val_main_v13
  generalize val_main_v5 (F := Ideal) x2 = c2
  generalize val_main_v12 (F := Ideal) x3 = c3
  refine concat_real (R := 400000) (A := 64) (B := 128) (T := 192) rfl x1 _ _ h1 (fun k => ?_) i
  obtain ⟨r2, e2⟩ := rowGather_real (N := 50000) (R := 400000) (C := 128) (by decide)
    gather_S50000x128_S400000x1_S400000x128_1_0_n_n_0_1_1128 rfl rfl rfl rfl rfl rfl rfl x0 h0 c2 k
  obtain ⟨r3, e3⟩ := rowGather_real (N := 50000) (R := 400000) (C := 128) (by decide)
    gather_S50000x128_S400000x1_S400000x128_1_0_n_n_0_1_1128 rfl rfl rfl rfl rfl rfl rfl x0 h0 c3 k
  refine ⟨r2 + r3, ?_⟩
  rw [EReal.coe_add, ← e2, ← e3]
  rfl

end Cert.InputRows

end
-- ==== Proof.Consts.lean ====
/-
  The float words the two programs spell whose VALUE the proof uses, as the extended reals they denote:
  the zero word is 0, the batch size 400000.0 is the real 400000, and the rectifier's slope word is some real
  (its value never matters, only that it is finite).
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `400000.0` denotes the real `400000`. -/
theorem ofBits_count : Ideal.ofBits .f32 0x48C35000#32 = ((400000 : ℝ) : EReal) := by
  simp [Ideal.ofBits, Ideal.ieee, -EReal.coe_mul]; norm_num

/-- The slope word denotes a real number. -/
theorem ofBits_slope_real : ∃ s : ℝ, Ideal.ofBits .f32 0x3C23D70A#32 = (s : EReal) := by
  simp [Ideal.ofBits, Ideal.ieee, -EReal.coe_mul]

end Cert.Consts

end
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.ActsReal.lean ====
/-
  Finite inputs give finite activations.

  A layer of real inputs, real weights and a real bias is real: a finite sum of products of reals plus a real, then the
  rectifier, which returns either its argument or the slope (a real) times it.  Hence every activation of every edge
  is a real number when the input matrix, the three weight matrices and the three biases are.
-/
import Mathlib
import Idealize.ShloMosaic.PureOps.Ideal
import Idealize.ShloMosaic.Lib.ValueIdx
import proofs.«163272_j69861938037523_1_alg».proof.Proof.Spec
import proofs.«163272_j69861938037523_1_alg».proof.Proof.Consts
import proofs.«163272_j69861938037523_1_alg».proof.Proof.LibERealCoe

noncomputable section

namespace Cert.ActsReal

open Idealize.ShloMosaic Idealize.ShloMosaic.ValueIdx Cert.Spec

/-- The rectifier of a real is a real. -/
theorem lrelu_real (y : ℝ) : ∃ r : ℝ, lrelu (y : EReal) = (r : EReal) := by
  obtain ⟨s, hs⟩ := Cert.Consts.ofBits_slope_real
  unfold lrelu
  rcases BitVec.eq_zero_or_eq_one (Ideal.cmp .oge (y : EReal) zeroW) with h | h
  · rw [h, select_zero, show slopeW = (s : EReal) from hs, ← EReal.coe_mul]; exact ⟨_, rfl⟩
  · rw [h, select_one]; exact ⟨_, rfl⟩

/-- A layer of reals is real. -/
theorem layer_real {K : Nat} (a : Fin K → EReal) (w : Mat K 128) (b : Fin 128 → EReal)
    (ha : ∀ k, ∃ r : ℝ, a k = (r : EReal)) (hw : ∀ i, ∃ r : ℝ, w i = (r : EReal))
    (hb : ∀ j, ∃ r : ℝ, b j = (r : EReal)) (j : Fin 128) : ∃ r : ℝ, layer a w b j = (r : EReal) := by
  choose ar har using ha
  choose wr hwr using hw
  choose br hbr using hb
  unfold layer
  have e : (∑ k : Fin K, a k * w (ix2 k j)) + b j = ((∑ k : Fin K, ar k * wr (ix2 k j) + br j : ℝ) : EReal) := by
    simp only [har, hwr, hbr, ← EReal.coe_mul]
    rw [Cert.Lib.coe_sum, ← EReal.coe_add]
  rw [e]
  exact lrelu_real _

/-- Every activation is real when the input matrix, the weights and the biases are. -/
theorem acts_real (X : Mat 400000 192) (W1 : Mat 192 128) (b1 : Fin 128 → EReal) (W2 : Mat 128 128)
    (b2 : Fin 128 → EReal) (W3 : Mat 128 128) (b3 : Fin 128 → EReal)
    (hX : ∀ i, ∃ r : ℝ, X i = (r : EReal)) (hW1 : ∀ i, ∃ r : ℝ, W1 i = (r : EReal))
    (hb1 : ∀ j, ∃ r : ℝ, b1 j = (r : EReal)) (hW2 : ∀ i, ∃ r : ℝ, W2 i = (r : EReal))
    (hb2 : ∀ j, ∃ r : ℝ, b2 j = (r : EReal)) (hW3 : ∀ i, ∃ r : ℝ, W3 i = (r : EReal))
    (hb3 : ∀ j, ∃ r : ℝ, b3 j = (r : EReal)) (e : Fin 400000) (j : Fin 128) :
    ∃ r : ℝ, acts X W1 b1 W2 b2 W3 b3 e j = (r : EReal) := by
  unfold acts Cert.Spec.hidden
  exact layer_real _ W3 b3 (fun k => layer_real _ W2 b2 (fun k' => layer_real _ W1 b1 (fun k'' => hX _) hW1 hb1 k') hW2 hb2 k)
    hW3 hb3 j

end Cert.ActsReal

end
-- ==== Proof.LibFlattenSum.lean ====
/-
  Sums over a flattened pair of feature blocks, regrouped.

  A row of 2·D·P features is laid out as two blocks of D·P features, each block indexed by (d, p) with
  p fastest: feature n = P·d + p in the first block, D·P + P·d + p in the second. Summing a function of the
  feature over the whole row is the same as summing, for each p, the two blocks' columns d — in any
  commutative monoid, so in particular on the extended reals with no finiteness assumed. Also: a sum over
  p < 2·Q split into its two halves, and a left-nested running sum from zero read as a finite sum.
-/
import Mathlib

namespace Cert.LibFlattenSum

open Finset

variable {M : Type*} [AddCommMonoid M]

/-- A sum over `Fin (D * P)` read as a double sum: `n = P * d + p`, the column `p` outermost. -/
theorem sum_block (D P : ℕ) (f : ℕ → M) :
    ∑ n : Fin (D * P), f n.val = ∑ p : Fin P, ∑ d : Fin D, f (P * d.val + p.val) := by
  rw [Finset.sum_comm]
  rw [← (finProdFinEquiv (m := D) (n := P)).sum_comp]
  rw [Fintype.sum_prod_type]
  refine Finset.sum_congr rfl fun d _ => Finset.sum_congr rfl fun p _ => ?_
  simp only [finProdFinEquiv_apply_val]
  congr 1
  ring

/-- A row of two blocks of `D * P` features each, summed column by column: for each `p` the first block's
    column and the second block's column. -/
theorem sum_two_blocks (D P : ℕ) (f : ℕ → M) :
    ∑ n : Fin (D * P + D * P), f n.val
      = ∑ p : Fin P, (∑ d : Fin D, f (P * d.val + p.val) + ∑ d : Fin D, f (D * P + (P * d.val + p.val))) := by
  rw [Fin.sum_univ_add]
  simp only [Fin.val_castAdd, Fin.val_natAdd]
  rw [sum_block D P f, sum_block D P fun n => f (D * P + n), ← Finset.sum_add_distrib]

/-- A sum over `p < Q + Q` is the sum of its two halves. -/
theorem sum_halves (Q : ℕ) (g : ℕ → M) :
    ∑ p : Fin (Q + Q), g p.val = ∑ p : Fin Q, g p.val + ∑ p : Fin Q, g (Q + p.val) := by
  rw [Fin.sum_univ_add]
  simp only [Fin.val_castAdd, Fin.val_natAdd]

end Cert.LibFlattenSum
-- ==== Proof.LibBatchVariance.lean ====
/-
  The biased variance of a finite family of reals, two ways.

  For reals r[e] over a finite index type with N elements (N ≠ 0, given as a real together with the equation
  card = N), with mean μ = (Σ r)/N:
      (Σ_e (r[e] − μ)²)/N = (Σ_e r[e]²)/N − μ²,
  because Σ (r − μ)² = Σ r² − 2μ Σ r + N μ² and Σ r = N μ.  This is the step between a batch normalisation that
  forms the variance as the mean of squared deviations and one that accumulates Σ r and Σ r² in one pass and forms
  "mean of squares minus squared mean".  It holds over the reals only: on the extended reals ∞ − ∞ is not 0, so a
  proof that uses it first shows its activations finite.
-/
import Mathlib

namespace Cert.LibBatchVariance

/-- The biased variance as "mean of squares minus squared mean": squares written as products, the count `N` a real
    with `hcard : (Fintype.card ι : ℝ) = N`. -/
theorem real_var_identity {ι : Type*} [Fintype ι] (N : ℝ) (hN : N ≠ 0) (hcard : (Fintype.card ι : ℝ) = N)
    (r : ι → ℝ) :
    (∑ e, (r e - (∑ e, r e) / N) * (r e - (∑ e, r e) / N)) / N
      = (∑ e, r e * r e) / N - ((∑ e, r e) / N) * ((∑ e, r e) / N) := by
  set μ := (∑ e, r e) / N with hμ
  have hs : ∑ e, r e = N * μ := by rw [hμ]; field_simp
  have hsq : ∑ e, (r e - μ) * (r e - μ) = ∑ e, r e * r e - 2 * μ * ∑ e, r e + N * (μ * μ) := by
    have h1 : ∀ e, (r e - μ) * (r e - μ) = r e * r e - 2 * μ * r e + μ * μ := fun e => by ring
    simp only [h1, Finset.sum_add_distrib, Finset.sum_sub_distrib, ← Finset.mul_sum, Finset.sum_const,
      Finset.card_univ, nsmul_eq_mul, hcard]
    ring
  rw [hsq, hs]
  field_simp
  ring

end Cert.LibBatchVariance
-- ==== Proof.StatsAlgebra.lean ====
/-
  The two ways of forming the batch statistics agree on finite activations.

  * The running sum over 100 blocks of 4000 consecutive edges, started from the zero word, is the sum over all
    400000 edges (a regrouping of a finite sum: true on the extended reals with no finiteness).  Hence the two means
    are one extended real.
  * For real activations r[e] with mean μ = (Σ r)/N, N = 400000 the number of edges,
      (Σ_e (r[e] − μ)²)/N = (Σ_e r[e]²)/N − μ²,
    because Σ (r − μ)² = Σ r² − 2μ Σ r + N μ² and Σ r = N μ.  This needs finiteness (∞ − ∞ is not 0), which is why
    the activations are assumed real here.
  With equal mean and variance the two normalised outputs are the same expression.
-/
import Mathlib
import Idealize.ShloMosaic.PureOps.Ideal
import proofs.«163272_j69861938037523_1_alg».proof.Proof.Spec
import proofs.«163272_j69861938037523_1_alg».proof.Proof.Consts
import proofs.«163272_j69861938037523_1_alg».proof.Proof.LibERealCoe
import proofs.«163272_j69861938037523_1_alg».proof.Proof.LibFlattenSum
import proofs.«163272_j69861938037523_1_alg».proof.Proof.LibBatchVariance

noncomputable section

namespace Cert.StatsAlgebra

open Idealize.ShloMosaic Cert.Spec

/-- A running sum from the zero word is the finite sum of its terms. -/
theorem runSum_eq (f : ℕ → EReal) (n : ℕ) : runSum f n = ∑ t ∈ Finset.range (n + 1), f t := by
  induction n with
  | zero => simp [runSum, zeroW, Cert.Consts.ofBits_zero]
  | succ n ih => rw [Finset.sum_range_succ, ← ih]; rfl

/-- The running sum of the 100 blocks' sums is the sum over all 400000 edges. -/
theorem runSum_blocks (u : ℕ → EReal) : runSum (blockSum u) 99 = ∑ e : Fin 400000, u e.val := by
  rw [runSum_eq, Finset.sum_range (fun t => blockSum u t)]
  have e : ∑ n : Fin 400000, u n.val = ∑ p : Fin 4000, ∑ d : Fin 100, u (4000 * d.val + p.val) :=
    Cert.LibFlattenSum.sum_block 100 4000 u
  rw [e, Finset.sum_comm]
  rfl

theorem atNat_val (h : Fin 400000 → Fin 128 → EReal) (j : Fin 128) (e : Fin 400000) : atNat h j e.val = h e j := by
  unfold atNat
  rw [dif_pos e.isLt]

theorem kerSum_eq (h : Fin 400000 → Fin 128 → EReal) (j : Fin 128) : kerSum h j = ∑ e : Fin 400000, h e j := by
  unfold kerSum
  rw [runSum_blocks]
  exact Finset.sum_congr rfl fun e _ => atNat_val h j e

theorem kerSumSq_eq (h : Fin 400000 → Fin 128 → EReal) (j : Fin 128) :
    kerSumSq h j = ∑ e : Fin 400000, h e j * h e j := by
  unfold kerSumSq
  rw [runSum_blocks]
  exact Finset.sum_congr rfl fun e _ => by rw [atNat_val]

/-- The two means are one extended real (no finiteness needed). -/
theorem kerMean_eq (h : Fin 400000 → Fin 128 → EReal) (j : Fin 128) : kerMean h j = refMean h j := by
  unfold kerMean refMean
  rw [kerSum_eq, show zeroW = 0 from Cert.Consts.ofBits_zero, zero_add]

/-- On real activations the two variances are one extended real. -/
theorem kerVar_eq (h : Fin 400000 → Fin 128 → EReal) (r : Fin 400000 → Fin 128 → ℝ)
    (hr : ∀ e j, h e j = ((r e j : ℝ) : EReal)) (j : Fin 128) : kerVar h j = refVar h j := by
  have hc : (400000 : ℝ) ≠ 0 := by norm_num
  have hS : ∑ e : Fin 400000, h e j = ((∑ e : Fin 400000, r e j : ℝ) : EReal) := by
    simp only [hr]; exact Cert.Lib.coe_sum _ _
  have hS2 : ∑ e : Fin 400000, h e j * h e j = ((∑ e : Fin 400000, r e j * r e j : ℝ) : EReal) := by
    simp only [hr, ← EReal.coe_mul]; exact Cert.Lib.coe_sum _ _
  have hμ : refMean h j = (((∑ e : Fin 400000, r e j) / 400000 : ℝ) : EReal) := by
    unfold refMean
    rw [show zeroW = 0 from Cert.Consts.ofBits_zero, zero_add, hS, show countW = ((400000 : ℝ) : EReal) from Cert.Consts.ofBits_count,
      Ideal.div_coe hc, ← EReal.coe_mul]
    refine congrArg (fun x : ℝ => (x : EReal)) ?_
    ring
  have hD : ∑ e : Fin 400000, (h e j - refMean h j) * (h e j - refMean h j)
      = ((∑ e : Fin 400000, (r e j - (∑ e : Fin 400000, r e j) / 400000) * (r e j - (∑ e : Fin 400000, r e j) / 400000) : ℝ) : EReal) := by
    rw [hμ]
    simp only [hr, ← EReal.coe_sub, ← EReal.coe_mul]
    exact Cert.Lib.coe_sum _ _
  unfold kerVar refVar
  rw [hD, kerMean_eq, hμ, kerSumSq_eq, hS2, show zeroW = 0 from Cert.Consts.ofBits_zero, zero_add,
    show countW = ((400000 : ℝ) : EReal) from Cert.Consts.ofBits_count, Ideal.div_coe hc, Ideal.div_coe hc,
    ← EReal.coe_mul, ← EReal.coe_mul, ← EReal.coe_mul, ← EReal.coe_sub]
  refine congrArg (fun x : ℝ => (x : EReal)) ?_
  have hcard : (Fintype.card (Fin 400000) : ℝ) = 400000 := by rw [Fintype.card_fin]; norm_num
  have key := Cert.LibBatchVariance.real_var_identity (ι := Fin 400000) 400000 hc hcard (fun e => r e j)
  rw [mul_one_div, mul_one_div]
  exact key.symm

/-- THE BRIDGE: on real activations the kernel's normalised output is the reference's, for any scale and shift. -/
theorem kerOut_eq_refOut (h : Fin 400000 → Fin 128 → EReal) (g β : Fin 128 → EReal)
    (hreal : ∀ e j, ∃ r : ℝ, h e j = ((r : ℝ) : EReal)) (e : Fin 400000) (j : Fin 128) :
    kerOut h g β e j = refOut h g β e j := by
  choose r hr using hreal
  unfold kerOut refOut
  rw [kerMean_eq, kerVar_eq h r hr]

end Cert.StatsAlgebra

end
-- ==== Proof.lean ====
/-
  The certificate of a message-passing layer: three affine layers with a leaky rectifier on each edge's input row,
  then batch normalisation over the 400000 edges.

  The kernel makes two passes over 100 blocks of 4000 edges: the first accumulates Σ h and Σ h² per feature, the host
  turns them into mean = Σh/N and var = Σh²/N − mean², and the second recomputes the layers and normalises.  The
  reference computes the layers once, mean = Σh/N and var = Σ(h − mean)²/N.

  * The three frames: the two kernel programs by their frame certificates; the reference's is its run with the result
    dropped.
  * `preserves`: the idealization rewrote nothing.
  * `algebraic`: at the ideal values both results are functions of the same activations h (the layers are the same
    sums, read index by index on both sides).  The block-wise running sums are the whole sums, so the means agree on
    the extended reals; the two variance formulas agree on REAL activations (Σ(h−μ)² = Σh² − Nμ² needs finiteness),
    and the activations are real because the precondition makes every float input finite and a gather only copies
    entries.
-/
import proofs.«163272_j69861938037523_1_alg».proof.Defs
import proofs.«163272_j69861938037523_1_alg».proof.Proof.Gen.Kernel
import proofs.«163272_j69861938037523_1_alg».proof.Proof.Gen.Kernel.Skeleton
import proofs.«163272_j69861938037523_1_alg».proof.Proof.Gen.Kernel.Launch
import proofs.«163272_j69861938037523_1_alg».proof.Proof.Gen.Kernel.Points
import proofs.«163272_j69861938037523_1_alg».proof.Proof.Gen.Kernel.Frame
import proofs.«163272_j69861938037523_1_alg».proof.Proof.Gen.KernelIdeal
import proofs.«163272_j69861938037523_1_alg».proof.Proof.Gen.KernelIdeal.Skeleton
import proofs.«163272_j69861938037523_1_alg».proof.Proof.Gen.KernelIdeal.Launch
import proofs.«163272_j69861938037523_1_alg».proof.Proof.Gen.KernelIdeal.Points
import proofs.«163272_j69861938037523_1_alg».proof.Proof.Gen.KernelIdeal.Frame
import proofs.«163272_j69861938037523_1_alg».proof.Proof.Gen.ReferenceIdeal
import proofs.«163272_j69861938037523_1_alg».proof.Proof.Gen.Pre_finite_inputs
import proofs.«163272_j69861938037523_1_alg».proof.Proof.RefReadPatched
import proofs.«163272_j69861938037523_1_alg».proof.Proof.RefRun
import proofs.«163272_j69861938037523_1_alg».proof.Proof.RefRead
import proofs.«163272_j69861938037523_1_alg».proof.Proof.KernelRun
import proofs.«163272_j69861938037523_1_alg».proof.Proof.KernelValue
import proofs.«163272_j69861938037523_1_alg».proof.Proof.FiniteInputs
import proofs.«163272_j69861938037523_1_alg».proof.Proof.InputRows
import proofs.«163272_j69861938037523_1_alg».proof.Proof.ActsReal
import proofs.«163272_j69861938037523_1_alg».proof.Proof.StatsAlgebra
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

set_option maxHeartbeats 4000000 in
/-- The kernel program's host builds the same input matrix as the reference's: the same operations of the same
    arguments. -/
theorem input_matrix_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.V1 m ρ c Cert.KernelIdeal.main_v15
      = Cert.ReferenceIdeal.ReadP.val_main_v15 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  show StableHlo.after Cert.KernelIdeal.Gen.hostOps0 (Cert.KernelIdeal.Gen.W0 m ρ c) (Proc.devRef .tc Cert.KernelIdeal.main_v15) = _
  simp only [Cert.KernelIdeal.Gen.hostOps0]
  after_results_simp
  rfl

theorem algebraic : Cert.algebraic_KernelIdeal_ReferenceIdeal := by
  intro m ρ m' ρ' hpre hagree
  refine ⟨fun c => Cert.KernelIdeal.Gen.W4 m ρ c (Proc.devRef .tc Cert.KernelIdeal.main_v31),
    Cert.KernelIdeal.RunValue.run_value m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8, a9, a10, a11⟩ := hagree c
  rw [a0, a1, a2, a3, a4, a5, a6, a7, a8, a9, a10, a11]
  funext i
  obtain ⟨e, j, rfl⟩ : ∃ (e : Fin 400000) (j : Fin 128), i = ix2 e j := ⟨i 0, i 1, eq_ix2 i⟩
  rw [Cert.RefRead.ref_apply]
  refine Eq.trans ?_ (Cert.KernelIdeal.KernelValue.result_apply m ρ c e j).symm
  unfold Cert.KernelIdeal.KernelValue.actsM
  rw [input_matrix_eq]
  obtain ⟨r0, r1, r4, r5, r6, r7, r8, r9⟩ := Cert.FiniteInputs.inputs_real _ _ _ _ _ _ _ _ _ _ _ _ (hpre c)
  refine (Cert.StatsAlgebra.kerOut_eq_refOut _ _ _ (fun e j => Cert.ActsReal.acts_real _ _ _ _ _ _ _
    (Cert.InputRows.input_rows_real _ _ _ _ r0 r1) r4 (fun j => r5 _) r6 (fun j => r7 _) r8 (fun j => r9 _) e j) e j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
